-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg13 : FVec F S64x8 .f32) (main_arg14 : FVec F S8 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x8 .f32 := Host.absf main_arg13
  let main_cst_20 : FVec F S_ .f32 := constant S_ .f32 0x7F800000#32
  let main_v55 : FVec F S64x8 .f32 := broadcastInDim S64x8 ![] bcast_S_S64x8 main_cst_20
  let main_v56 : IVec S64x8 1 := cmpf .olt main_v54 main_v55
  let main_c_21 : IVec S_ 1 := constantI S_ 1 1#1
  let main_v57 : IVec S_ 1 := (fun x v => Host.reduce IntOp.andi x v reducesTo_S64x8_S_d0_1 h_S_) main_v56 main_c_21
  let main_v58 : IVec S_ 1 := andi main_v53 main_v57
  let main_v59 : FVec F S8 .f32 := Host.absf main_arg14
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  main_v63

def fn_part2 {F : FTy → Type} [FloatOps F] (main_arg9 : FVec F S3x128 .f32) (main_arg10 : FVec F S3x128 .f32) (main_arg11 : FVec F S128x64 .f32) (main_arg12 : FVec F S64 .f32) (main_arg13 : FVec F S64x8 .f32) (main_arg14 : FVec F S8 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S3x128 .f32) (main_arg7 : FVec F S3x128 .f32) (main_arg8 : FVec F S3x128 .f32) (main_arg9 : FVec F S3x128 .f32) (main_arg10 : FVec F S3x128 .f32) (main_arg11 : FVec F S128x64 .f32) (main_arg12 : FVec F S64 .f32) (main_arg13 : FVec F S64x8 .f32) (main_arg14 : FVec F S8 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x64 .f32) (main_arg1 : IVec S2x800000 32) (main_arg2 : IVec S50000 32) (main_arg3 : FVec F S64x128 .f32) (main_arg4 : FVec F S128 .f32) (main_arg5 : FVec F S3x128x128 .f32) (main_arg6 : FVec F S3x128 .f32) (main_arg7 : FVec F S3x128 .f32) (main_arg8 : FVec F S3x128 .f32) (main_arg9 : FVec F S3x128 .f32) (main_arg10 : FVec F S3x128 .f32) (main_arg11 : FVec F S128x64 .f32) (main_arg12 : FVec F S64 .f32) (main_arg13 : FVec F S64x8 .f32) (main_arg14 : FVec F S8 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_arg13 main_arg14 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S1x128x128 : Shape := ⟨3, ![1, 128, 128]⟩
abbrev S128x128 : Shape := ⟨2, ![128, 128]⟩
abbrev S850000x128 : Shape := ⟨2, ![850000, 128]⟩
abbrev S50000x1 : Shape := ⟨2, ![50000, 1]⟩
abbrev S1x64 : Shape := ⟨2, ![1, 64]⟩
abbrev S1x8 : Shape := ⟨2, ![1, 8]⟩
abbrev S64x64 : Shape := ⟨2, ![64, 64]⟩

abbrev nBuf : Space → Nat
  | .hbm => 162
  | .vmem => 54
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S3x128x128, .f32⟩
  | 6 => ⟨S3x128, .f32⟩
  | 7 => ⟨S3x128, .f32⟩
  | 8 => ⟨S3x128, .f32⟩
  | 9 => ⟨S3x128, .f32⟩
  | 10 => ⟨S3x128, .f32⟩
  | 11 => ⟨S128x64, .f32⟩
  | 12 => ⟨S64, .f32⟩
  | 13 => ⟨S64x8, .f32⟩
  | 14 => ⟨S8, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S1x128, .f32⟩
  | 49 => ⟨S50000x128, .f32⟩
  | 50 => ⟨S1x128x128, .f32⟩
  | 51 => ⟨S128x128, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S50000x128, .f32⟩
  | 85 => ⟨S1x128x128, .f32⟩
  | 86 => ⟨S128x128, .f32⟩
  | 87 => ⟨S50000x128, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000x128, .f32⟩
  | 97 => ⟨S850000x1, .f32⟩
  | 98 => ⟨S850000x128, .f32⟩
  | 99 => ⟨S850000x128, .f32⟩
  | 100 => ⟨S_, .f32⟩
  | 101 => ⟨S50000x128, .f32⟩
  | 102 => ⟨S850000x1, .i32⟩
  | 103 => ⟨S50000x128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S128, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S50000x128, .f32⟩
  | 120 => ⟨S1x128x128, .f32⟩
  | 121 => ⟨S128x128, .f32⟩
  | 122 => ⟨S50000x128, .f32⟩
  | 123 => ⟨S_, .i32⟩
  | 124 => ⟨S850000, .i32⟩
  | 125 => ⟨S850000, .i1⟩
  | 126 => ⟨S_, .i32⟩
  | 127 => ⟨S850000, .i32⟩
  | _ => ⟨S50000x64, .f32⟩

abbrev hbmTy0_1 (i : Nat) : BufTy := match i % 128 with
  | 0 => ⟨S850000, .i32⟩
  | 1 => ⟨S850000, .i32⟩
  | 2 => ⟨S850000x1, .i32⟩
  | 3 => ⟨S850000x128, .f32⟩
  | 4 => ⟨S850000x1, .f32⟩
  | 5 => ⟨S850000x128, .f32⟩
  | 6 => ⟨S850000x128, .f32⟩
  | 7 => ⟨S_, .f32⟩
  | 8 => ⟨S50000x128, .f32⟩
  | 9 => ⟨S850000x1, .i32⟩
  | 10 => ⟨S50000x128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S1x128, .f32⟩
  | 23 => ⟨S1x128, .f32⟩
  | 24 => ⟨S1x128, .f32⟩
  | 25 => ⟨S1x128, .f32⟩
  | 26 => ⟨S50000x128, .f32⟩
  | 27 => ⟨S_, .f32⟩
  | 28 => ⟨S64x128, .f32⟩
  | 29 => ⟨S50000x1, .i32⟩
  | 30 => ⟨S64x128, .f32⟩
  | 31 => ⟨S1x64, .f32⟩
  | 32 => ⟨S1x8, .f32⟩
  | 33 => ⟨S64x8, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S64x128, .f32⟩
  | .local _ .vmem, ⟨49, _⟩ => ⟨S128x64, .f32⟩
  | .local _ .vmem, ⟨50, _⟩ => ⟨S1x64, .f32⟩
  | .local _ .vmem, ⟨51, _⟩ => ⟨S64x8, .f32⟩
  | .local _ .vmem, ⟨52, _⟩ => ⟨S1x8, .f32⟩
  | .local _ .vmem, ⟨53, _⟩ => ⟨S64x8, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_7 : Ref sig .tc := ⟨.hbm, 88, rfl⟩
abbrev main_v64 : Ref sig .tc := ⟨.hbm, 89, rfl⟩
abbrev main_v65 : Ref sig .tc := ⟨.hbm, 90, rfl⟩
abbrev main_c_8 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_9 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_c_10 : Ref sig .tc := ⟨.hbm, 123, rfl⟩
abbrev main_v96 : Ref sig .tc := ⟨.hbm, 124, rfl⟩
abbrev main_v97 : Ref sig .tc := ⟨.hbm, 125, rfl⟩
abbrev main_c_11 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_12 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_cst_13 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc4_stg6_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg4_0 : Ref sig .tc := ⟨.vmem, 44, rfl⟩
abbrev cc6_stg5_0 : Ref sig .tc := ⟨.vmem, 45, rfl⟩
abbrev cc6_stg6_0 : Ref sig .tc := ⟨.vmem, 46, rfl⟩
abbrev cc6_stg6_1 : Ref sig .tc := ⟨.vmem, 47, rfl⟩
abbrev cc7_stg0_0 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg4_0 : Ref sig .tc := ⟨.vmem, 52, rfl⟩
abbrev cc7_stg5_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem6_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem4_0 : DmaSem sig := 44
abbrev cc6_sem5_0 : DmaSem sig := 45
abbrev cc6_sem6_0 : DmaSem sig := 46
abbrev cc6_sem6_1 : DmaSem sig := 47
abbrev cc7_sem0_0 : DmaSem sig := 48
abbrev cc7_sem1_0 : DmaSem sig := 49
abbrev cc7_sem2_0 : DmaSem sig := 50
abbrev cc7_sem3_0 : DmaSem sig := 51
abbrev cc7_sem4_0 : DmaSem sig := 52
abbrev cc7_sem5_0 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S64x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x8 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x8 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x8 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  shapeCasts_S64_S1x64 : S64.ShapeCasts S1x64
  shapeCasts_S8_S1x8 : S8.ShapeCasts S1x8
  shapeCasts_S64x128_S64x128 : S64x128.ShapeCasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S64x8 : S1x8.Broadcasts S64x8
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  dot_S64x128_S128x64_S64x64_1_0_0_1_n_n_wf : DotDims.WF S64x128 S128x64 S64x64 [1] [0] [0] [1] [] []
  dot_S64x64_S64x8_S64x8_1_0_0_1_n_n_wf : DotDims.WF S64x64 S64x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S64x128.size a ≤ S64x128.size a
  hwx7_0 : ∀ i : grid7.Coords, EltTy.bits .f32 = 32 ∨ (Rect.block (s := S64x128) S64x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x8.size a ≤ S64x8.size a
  hwx7_3 : ∀ i : grid7.Coords, EltTy.bits .f32 = 32 ∨ (Rect.block (s := S64x8) S64x8.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x8.size a ≤ S1x8.size a
  hwx7_4 : ∀ i : grid7.Coords, EltTy.bits .f32 = 32 ∨ (Rect.block (s := S1x8) S1x8.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x8.size a ≤ S64x8.size a
  hwx7_5 : ∀ i : grid7.Coords, EltTy.bits .f32 = 32 ∨ (Rect.block (s := S64x8) S64x8.size (cc7_transform_5 i) (hinb7_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x8_S64x8_1_0_0_1_n_n : DotDims S64x64 S64x8 S64x8 where
  lhsContracting := [1]
  rhsContracting := [0]
  lhsNonContracting := [0]
  rhsNonContracting := [1]
  lhsBatch := []
  rhsBatch := []
  wf := dot_S64x64_S64x8_S64x8_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v92) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v92) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v95) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v108) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v119) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v120) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v121) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v122) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v123) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v124) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v127) S64x128.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v128) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg13) S64x8.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v129) S1x8.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v130) S64x8.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S1x128 : Shape := ⟨2, ![1, 128]⟩
abbrev S1x128x128 : Shape := ⟨3, ![1, 128, 128]⟩
abbrev S128x128 : Shape := ⟨2, ![128, 128]⟩
abbrev S850000x128 : Shape := ⟨2, ![850000, 128]⟩
abbrev S50000x1 : Shape := ⟨2, ![50000, 1]⟩
abbrev S64x64 : Shape := ⟨2, ![64, 64]⟩
abbrev S1x64 : Shape := ⟨2, ![1, 64]⟩
abbrev S1x8 : Shape := ⟨2, ![1, 8]⟩

abbrev nBuf : Space → Nat
  | .hbm => 236
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S3x128x128, .f32⟩
  | 6 => ⟨S3x128, .f32⟩
  | 7 => ⟨S3x128, .f32⟩
  | 8 => ⟨S3x128, .f32⟩
  | 9 => ⟨S3x128, .f32⟩
  | 10 => ⟨S3x128, .f32⟩
  | 11 => ⟨S128x64, .f32⟩
  | 12 => ⟨S64, .f32⟩
  | 13 => ⟨S64x8, .f32⟩
  | 14 => ⟨S8, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .f32⟩
  | 49 => ⟨S1x128, .f32⟩
  | 50 => ⟨S50000x128, .f32⟩
  | 51 => ⟨S50000x128, .f32⟩
  | 52 => ⟨S1x128x128, .f32⟩
  | 53 => ⟨S128x128, .f32⟩
  | 54 => ⟨S50000x128, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x128, .f32⟩
  | 64 => ⟨S850000x1, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S1x128, .f32⟩
  | 82 => ⟨S128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .i1⟩
  | 103 => ⟨S_, .f32⟩
  | 104 => ⟨S50000x128, .f32⟩
  | 105 => ⟨S50000x128, .f32⟩
  | 106 => ⟨S50000x128, .f32⟩
  | 107 => ⟨S1x128x128, .f32⟩
  | 108 => ⟨S128x128, .f32⟩
  | 109 => ⟨S50000x128, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x1, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S128, .f32⟩
  | _ => ⟨S50000x64, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S128, .f32⟩
  | 10 => ⟨S_, .f32⟩
  | 11 => ⟨S128, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .i1⟩
  | 30 => ⟨S_, .f32⟩
  | 31 => ⟨S50000x128, .f32⟩
  | 32 => ⟨S50000x128, .f32⟩
  | 33 => ⟨S50000x128, .f32⟩
  | 34 => ⟨S1x128x128, .f32⟩
  | 35 => ⟨S128x128, .f32⟩
  | 36 => ⟨S50000x128, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000x128, .f32⟩
  | 46 => ⟨S850000x1, .f32⟩
  | 47 => ⟨S850000x128, .f32⟩
  | 48 => ⟨S850000x128, .f32⟩
  | 49 => ⟨S_, .f32⟩
  | 50 => ⟨S50000x128, .f32⟩
  | 51 => ⟨S850000x1, .i32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S128, .f32⟩
  | 65 => ⟨S_, .f32⟩
  | 66 => ⟨S128, .f32⟩
  | 67 => ⟨S128, .f32⟩
  | 68 => ⟨S128, .f32⟩
  | 69 => ⟨S1x128, .f32⟩
  | 70 => ⟨S50000x128, .f32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S1x128, .f32⟩
  | 78 => ⟨S128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .i1⟩
  | 85 => ⟨S_, .f32⟩
  | 86 => ⟨S50000x128, .f32⟩
  | 87 => ⟨S50000x128, .f32⟩
  | 88 => ⟨S50000x128, .f32⟩
  | 89 => ⟨S_, .f32⟩
  | 90 => ⟨S64x128, .f32⟩
  | 91 => ⟨S50000x1, .i32⟩
  | 92 => ⟨S64x128, .f32⟩
  | 93 => ⟨S64x64, .f32⟩
  | 94 => ⟨S1x64, .f32⟩
  | 95 => ⟨S64x64, .f32⟩
  | 96 => ⟨S64x64, .f32⟩
  | 97 => ⟨S_, .f32⟩
  | 98 => ⟨S64x64, .f32⟩
  | 99 => ⟨S64x64, .i1⟩
  | 100 => ⟨S_, .f32⟩
  | 101 => ⟨S64x64, .f32⟩
  | 102 => ⟨S64x64, .f32⟩
  | 103 => ⟨S64x64, .f32⟩
  | 104 => ⟨S64x8, .f32⟩
  | 105 => ⟨S1x8, .f32⟩
  | 106 => ⟨S64x8, .f32⟩
  | 107 => ⟨S64x8, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_8 : Ref sig .tc := ⟨.hbm, 100, rfl⟩
abbrev main_v75 : Ref sig .tc := ⟨.hbm, 101, rfl⟩
abbrev main_v76 : Ref sig .tc := ⟨.hbm, 102, rfl⟩
abbrev main_cst_9 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_10 : Ref sig .tc := ⟨.hbm, 110, rfl⟩
abbrev main_v83 : Ref sig .tc := ⟨.hbm, 111, rfl⟩
abbrev main_v84 : Ref sig .tc := ⟨.hbm, 112, rfl⟩
abbrev main_c_11 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_12 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_13 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_cst_14 : Ref sig .tc := ⟨.hbm, 155, rfl⟩
abbrev main_v124 : Ref sig .tc := ⟨.hbm, 156, rfl⟩
abbrev main_v125 : Ref sig .tc := ⟨.hbm, 157, rfl⟩
abbrev main_cst_15 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_c_16 : Ref sig .tc := ⟨.hbm, 165, rfl⟩
abbrev main_v132 : Ref sig .tc := ⟨.hbm, 166, rfl⟩
abbrev main_v133 : Ref sig .tc := ⟨.hbm, 167, rfl⟩
abbrev main_c_17 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_cst_18 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_cst_19 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_cst_20 : Ref sig .tc := ⟨.hbm, 210, rfl⟩
abbrev main_v173 : Ref sig .tc := ⟨.hbm, 211, rfl⟩
abbrev main_v174 : Ref sig .tc := ⟨.hbm, 212, rfl⟩
abbrev main_cst_21 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_cst_22 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_cst_23 : Ref sig .tc := ⟨.hbm, 225, rfl⟩
abbrev main_v185 : Ref sig .tc := ⟨.hbm, 226, rfl⟩
abbrev main_v186 : Ref sig .tc := ⟨.hbm, 227, rfl⟩
abbrev main_cst_24 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  dot_S64x128_S128x64_S64x64_1_0_0_1_n_n_wf : DotDims.WF S64x128 S128x64 S64x64 [1] [0] [0] [1] [] []
  dot_S64x64_S64x8_S64x8_1_0_0_1_n_n_wf : DotDims.WF S64x64 S64x8 S64x8 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x8_S64x8_1_0_0_1_n_n : DotDims S64x64 S64x8 S64x8 where
  lhsContracting := [1]
  rhsContracting := [0]
  lhsNonContracting := [0]
  rhsNonContracting := [1]
  lhsBatch := []
  rhsBatch := []
  wf := dot_S64x64_S64x8_S64x8_1_0_0_1_n_n_wf

class Facts : Prop extends Facts₀ where

variable [Facts]
-- ==== Proof.RefValue.lean ====
/-
  The reference's result term is its last stage.

  The reference's run ends with the result buffer at the composition of all 221 host operations applied to the launch
  memory's arguments, written out in full; the staged form names every operation's value once. The two are the same
  term, one unfolded and one folded.
-/
import proofs.«179248_j25366076850805_1_alg».proof.Proof.RefRunP
import proofs.«179248_j25366076850805_1_alg».proof.Proof.RefReadP

noncomputable section

namespace Cert.ReferenceIdeal.RefValue

open Cert.ReferenceIdeal Cert.ReferenceIdeal.Gen Cert.ReferenceIdeal.ReadP Idealize.ShloMosaic Idealize.ShloMosaic.TcCoe Idealize.SL.Sem

variable {F : FTy → Type} [FloatOps F]

set_option maxRecDepth 16384 in
set_option maxHeartbeats 0 in
/-- The run's result term is the last stage of the launch memory's arguments. -/
theorem res_eq (m : (ℓ : Loc nD τ sig) → Buf (Elt F) ℓ) (c : Dev nD) :
    Cert.ReferenceIdeal.ValueP.res_main_v193 m c = val_main_v193 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.ValueP.res_main_v193; rfl

end Cert.ReferenceIdeal.RefValue

end
-- ==== Proof.KernelRun.lean ====
/-
  The idealized kernel program's run with its result named. The program is eight kernel regions among stretches of host
  operations; the launch theorem for such a program gives, for every weakly fair execution, termination without a fault
  in a state whose every unscoped buffer holds the last boundary's contents `W16`. Read at the result buffer that is the
  result's value, and read at the fifteen argument buffers it is the launch memory (no region and no host operation
  writes an argument).
-/
import proofs.«179248_j25366076850805_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the arguments as launched. -/
theorem run : θ_run defs (onTc (τ := τ) (main (F := F))) ⟨m, fun _ => 0, ρ⟩ (fun r => ∀ c : Dev nD,
      r.2.mem ((c.tc : Thread nD τ).loc main_v130) = W16 m ρ c (Proc.devRef .tc main_v130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v130 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c)⟩)

end Cert.KernelIdeal.Run

end
-- ==== Proof.ChainArgs.lean ====
/-
  The launch memory's fifteen argument arrays, named.
-/
import proofs.«179248_j25366076850805_1_alg».proof.Proof.Gen.KernelIdeal.Frame
import Idealize.ShloMosaic.PureOps.Ideal

noncomputable section

namespace Cert.KernelIdeal.Chain

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The launch memory's argument arrays on core `c`. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)
abbrev A11 := m ((c : Thread nD τ).loc main_arg11)
abbrev A12 := m ((c : Thread nD τ).loc main_arg12)
abbrev A13 := m ((c : Thread nD τ).loc main_arg13)
abbrev A14 := m ((c : Thread nD τ).loc main_arg14)

end Cert.KernelIdeal.Chain

end
-- ==== Proof.Carry.lean ====
/-
  Buffers that pass through a boundary untouched.

  Between two consecutive boundaries of the program either a stretch of host operations runs, which changes only the
  buffers its operations write, or a kernel region runs, which changes only its own arrays. The argument buffers that
  later stretches and the last region read are written by nothing, so at every boundary they hold the launch memory; the
  two edge-endpoint vectors and the edge weights are written once, by the first stretch, and hold that value from
  boundary 1 on.
-/
import proofs.«179248_j25366076850805_1_alg».proof.Proof.Gen.KernelIdeal.Frame

noncomputable section

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The argument buffers read after the first region: the graph's batch vector, the layers' weights and normalisation
    parameters, and the perceptron's parameters. -/
abbrev args : List (Ref sig .tc) :=
  [main_arg2, main_arg5, main_arg6, main_arg7, main_arg8, main_arg9, main_arg10, main_arg11, main_arg12, main_arg13, main_arg14]

/-- The edge sources, the edge targets and the edge weights, computed by the first stretch and read by every layer. -/
abbrev edges : List (Ref sig .tc) := [main_v3, main_v6, main_v26]

/-- A stretch of host operations leaves a buffer none of them writes as it was. -/
macro "host_keep" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

set_option hygiene false in
macro "split_args" h:ident : tactic => `(tactic|
  (simp only [args, List.mem_cons, List.mem_nil_iff, or_false] at $h:ident
   rcases $h:ident with rfl | rfl | rfl | rfl | rfl | rfl | rfl | rfl | rfl | rfl | rfl))

set_option hygiene false in
macro "split_edges" h:ident : tactic => `(tactic|
  (simp only [edges, List.mem_cons, List.mem_nil_iff, or_false] at $h:ident
   rcases $h:ident with rfl | rfl | rfl))

/-! ## One boundary to the next -/

theorem argStep1 (c : Dev nD) : ∀ b ∈ args, W1 m ρ c (Proc.devRef .tc b) = W0 m ρ c (Proc.devRef .tc b) := by
  intro b hb; split_args hb <;> host_keep hostOps0

theorem argStep2 (c : Dev nD) : ∀ b ∈ args, W2 m ρ c (Proc.devRef .tc b) = W1 m ρ c (Proc.devRef .tc b) := by
  intro b hb; split_args hb <;> exact W2_of_ne m ρ c _ (by decide)
theorem edgeStep2 (c : Dev nD) : ∀ b ∈ edges, W2 m ρ c (Proc.devRef .tc b) = W1 m ρ c (Proc.devRef .tc b) := by
  intro b hb; split_edges hb <;> exact W2_of_ne m ρ c _ (by decide)

theorem argStep3 (c : Dev nD) : ∀ b ∈ args, W3 m ρ c (Proc.devRef .tc b) = W2 m ρ c (Proc.devRef .tc b) := by
  intro b hb; split_args hb <;> host_keep hostOps1
theorem edgeStep3 (c : Dev nD) : ∀ b ∈ edges, W3 m ρ c (Proc.devRef .tc b) = W2 m ρ c (Proc.devRef .tc b) := by
  intro b hb; split_edges hb <;> host_keep hostOps1

theorem argStep4 (c : Dev nD) : ∀ b ∈ args, W4 m ρ c (Proc.devRef .tc b) = W3 m ρ c (Proc.devRef .tc b) := by
  intro b hb; split_args hb <;> exact W4_of_ne m ρ c _ (by decide)
theorem edgeStep4 (c : Dev nD) : ∀ b ∈ edges, W4 m ρ c (Proc.devRef .tc b) = W3 m ρ c (Proc.devRef .tc b) := by
  intro b hb; split_edges hb <;> exact W4_of_ne m ρ c _ (by decide)

theorem argStep5 (c : Dev nD) : ∀ b ∈ args, W5 m ρ c (Proc.devRef .tc b) = W4 m ρ c (Proc.devRef .tc b) := by
  intro b hb; split_args hb <;> host_keep hostOps2
theorem edgeStep5 (c : Dev nD) : ∀ b ∈ edges, W5 m ρ c (Proc.devRef .tc b) = W4 m ρ c (Proc.devRef .tc b) := by
  intro b hb; split_edges hb <;> host_keep hostOps2

theorem argStep6 (c : Dev nD) : ∀ b ∈ args, W6 m ρ c (Proc.devRef .tc b) = W5 m ρ c (Proc.devRef .tc b) := by
  intro b hb; split_args hb <;> exact W6_of_ne m ρ c _ (by decide)
theorem edgeStep6 (c : Dev nD) : ∀ b ∈ edges, W6 m ρ c (Proc.devRef .tc b) = W5 m ρ c (Proc.devRef .tc b) := by
  intro b hb; split_edges hb <;> exact W6_of_ne m ρ c _ (by decide)

theorem argStep7 (c : Dev nD) : ∀ b ∈ args, W7 m ρ c (Proc.devRef .tc b) = W6 m ρ c (Proc.devRef .tc b) := by
  intro b hb; split_args hb <;> host_keep hostOps3
theorem edgeStep7 (c : Dev nD) : ∀ b ∈ edges, W7 m ρ c (Proc.devRef .tc b) = W6 m ρ c (Proc.devRef .tc b) := by
  intro b hb; split_edges hb <;> host_keep hostOps3

theorem argStep8 (c : Dev nD) : ∀ b ∈ args, W8 m ρ c (Proc.devRef .tc b) = W7 m ρ c (Proc.devRef .tc b) := by
  intro b hb; split_args hb <;> exact W8_of_ne m ρ c _ (by decide)
theorem edgeStep8 (c : Dev nD) : ∀ b ∈ edges, W8 m ρ c (Proc.devRef .tc b) = W7 m ρ c (Proc.devRef .tc b) := by
  intro b hb; split_edges hb <;> exact W8_of_ne m ρ c _ (by decide)

theorem argStep9 (c : Dev nD) : ∀ b ∈ args, W9 m ρ c (Proc.devRef .tc b) = W8 m ρ c (Proc.devRef .tc b) := by
  intro b hb; split_args hb <;> host_keep hostOps4
theorem edgeStep9 (c : Dev nD) : ∀ b ∈ edges, W9 m ρ c (Proc.devRef .tc b) = W8 m ρ c (Proc.devRef .tc b) := by
  intro b hb; split_edges hb <;> host_keep hostOps4

theorem argStep10 (c : Dev nD) : ∀ b ∈ args, W10 m ρ c (Proc.devRef .tc b) = W9 m ρ c (Proc.devRef .tc b) := by
  intro b hb; split_args hb <;> exact W10_of_ne m ρ c _ (by decide)
theorem edgeStep10 (c : Dev nD) : ∀ b ∈ edges, W10 m ρ c (Proc.devRef .tc b) = W9 m ρ c (Proc.devRef .tc b) := by
  intro b hb; split_edges hb <;> exact W10_of_ne m ρ c _ (by decide)

theorem argStep11 (c : Dev nD) : ∀ b ∈ args, W11 m ρ c (Proc.devRef .tc b) = W10 m ρ c (Proc.devRef .tc b) := by
  intro b hb; split_args hb <;> host_keep hostOps5
theorem edgeStep11 (c : Dev nD) : ∀ b ∈ edges, W11 m ρ c (Proc.devRef .tc b) = W10 m ρ c (Proc.devRef .tc b) := by
  intro b hb; split_edges hb <;> host_keep hostOps5

theorem argStep12 (c : Dev nD) : ∀ b ∈ args, W12 m ρ c (Proc.devRef .tc b) = W11 m ρ c (Proc.devRef .tc b) := by
  intro b hb; split_args hb <;> exact W12_of_ne m ρ c _ (by decide)
theorem edgeStep12 (c : Dev nD) : ∀ b ∈ edges, W12 m ρ c (Proc.devRef .tc b) = W11 m ρ c (Proc.devRef .tc b) := by
  intro b hb; split_edges hb <;> exact W12_of_ne m ρ c _ (by decide)

theorem argStep13 (c : Dev nD) : ∀ b ∈ args, W13 m ρ c (Proc.devRef .tc b) = W12 m ρ c (Proc.devRef .tc b) := by
  intro b hb; split_args hb <;> host_keep hostOps6
theorem edgeStep13 (c : Dev nD) : ∀ b ∈ edges, W13 m ρ c (Proc.devRef .tc b) = W12 m ρ c (Proc.devRef .tc b) := by
  intro b hb; split_edges hb <;> host_keep hostOps6

theorem argStep14 (c : Dev nD) : ∀ b ∈ args, W14 m ρ c (Proc.devRef .tc b) = W13 m ρ c (Proc.devRef .tc b) := by
  intro b hb; split_args hb <;> exact W14_of_ne m ρ c _ (by decide)

theorem argStep15 (c : Dev nD) : ∀ b ∈ args, W15 m ρ c (Proc.devRef .tc b) = W14 m ρ c (Proc.devRef .tc b) := by
  intro b hb; split_args hb <;> host_keep hostOps7

/-! ## From a boundary back to the launch memory (arguments) or to boundary 1 (edge data) -/

theorem arg1 (c : Dev nD) (b : Ref sig .tc) (hb : b ∈ args) : W1 m ρ c (Proc.devRef .tc b) = m ((c : Thread nD τ).loc b) :=
  argStep1 m ρ c b hb
theorem arg2 (c : Dev nD) (b : Ref sig .tc) (hb : b ∈ args) : W2 m ρ c (Proc.devRef .tc b) = m ((c : Thread nD τ).loc b) :=
  (argStep2 m ρ c b hb).trans (arg1 m ρ c b hb)
theorem arg3 (c : Dev nD) (b : Ref sig .tc) (hb : b ∈ args) : W3 m ρ c (Proc.devRef .tc b) = m ((c : Thread nD τ).loc b) :=
  (argStep3 m ρ c b hb).trans (arg2 m ρ c b hb)
theorem arg4 (c : Dev nD) (b : Ref sig .tc) (hb : b ∈ args) : W4 m ρ c (Proc.devRef .tc b) = m ((c : Thread nD τ).loc b) :=
  (argStep4 m ρ c b hb).trans (arg3 m ρ c b hb)
theorem arg5 (c : Dev nD) (b : Ref sig .tc) (hb : b ∈ args) : W5 m ρ c (Proc.devRef .tc b) = m ((c : Thread nD τ).loc b) :=
  (argStep5 m ρ c b hb).trans (arg4 m ρ c b hb)
theorem arg6 (c : Dev nD) (b : Ref sig .tc) (hb : b ∈ args) : W6 m ρ c (Proc.devRef .tc b) = m ((c : Thread nD τ).loc b) :=
  (argStep6 m ρ c b hb).trans (arg5 m ρ c b hb)
theorem arg7 (c : Dev nD) (b : Ref sig .tc) (hb : b ∈ args) : W7 m ρ c (Proc.devRef .tc b) = m ((c : Thread nD τ).loc b) :=
  (argStep7 m ρ c b hb).trans (arg6 m ρ c b hb)
theorem arg8 (c : Dev nD) (b : Ref sig .tc) (hb : b ∈ args) : W8 m ρ c (Proc.devRef .tc b) = m ((c : Thread nD τ).loc b) :=
  (argStep8 m ρ c b hb).trans (arg7 m ρ c b hb)
theorem arg9 (c : Dev nD) (b : Ref sig .tc) (hb : b ∈ args) : W9 m ρ c (Proc.devRef .tc b) = m ((c : Thread nD τ).loc b) :=
  (argStep9 m ρ c b hb).trans (arg8 m ρ c b hb)
theorem arg10 (c : Dev nD) (b : Ref sig .tc) (hb : b ∈ args) : W10 m ρ c (Proc.devRef .tc b) = m ((c : Thread nD τ).loc b) :=
  (argStep10 m ρ c b hb).trans (arg9 m ρ c b hb)
theorem arg11 (c : Dev nD) (b : Ref sig .tc) (hb : b ∈ args) : W11 m ρ c (Proc.devRef .tc b) = m ((c : Thread nD τ).loc b) :=
  (argStep11 m ρ c b hb).trans (arg10 m ρ c b hb)
theorem arg12 (c : Dev nD) (b : Ref sig .tc) (hb : b ∈ args) : W12 m ρ c (Proc.devRef .tc b) = m ((c : Thread nD τ).loc b) :=
  (argStep12 m ρ c b hb).trans (arg11 m ρ c b hb)
theorem arg13 (c : Dev nD) (b : Ref sig .tc) (hb : b ∈ args) : W13 m ρ c (Proc.devRef .tc b) = m ((c : Thread nD τ).loc b) :=
  (argStep13 m ρ c b hb).trans (arg12 m ρ c b hb)
theorem arg14 (c : Dev nD) (b : Ref sig .tc) (hb : b ∈ args) : W14 m ρ c (Proc.devRef .tc b) = m ((c : Thread nD τ).loc b) :=
  (argStep14 m ρ c b hb).trans (arg13 m ρ c b hb)
theorem arg15 (c : Dev nD) (b : Ref sig .tc) (hb : b ∈ args) : W15 m ρ c (Proc.devRef .tc b) = m ((c : Thread nD τ).loc b) :=
  (argStep15 m ρ c b hb).trans (arg14 m ρ c b hb)

theorem edge2 (c : Dev nD) (b : Ref sig .tc) (hb : b ∈ edges) : W2 m ρ c (Proc.devRef .tc b) = W1 m ρ c (Proc.devRef .tc b) :=
  edgeStep2 m ρ c b hb
theorem edge3 (c : Dev nD) (b : Ref sig .tc) (hb : b ∈ edges) : W3 m ρ c (Proc.devRef .tc b) = W1 m ρ c (Proc.devRef .tc b) :=
  (edgeStep3 m ρ c b hb).trans (edge2 m ρ c b hb)
theorem edge4 (c : Dev nD) (b : Ref sig .tc) (hb : b ∈ edges) : W4 m ρ c (Proc.devRef .tc b) = W1 m ρ c (Proc.devRef .tc b) :=
  (edgeStep4 m ρ c b hb).trans (edge3 m ρ c b hb)
theorem edge5 (c : Dev nD) (b : Ref sig .tc) (hb : b ∈ edges) : W5 m ρ c (Proc.devRef .tc b) = W1 m ρ c (Proc.devRef .tc b) :=
  (edgeStep5 m ρ c b hb).trans (edge4 m ρ c b hb)
theorem edge6 (c : Dev nD) (b : Ref sig .tc) (hb : b ∈ edges) : W6 m ρ c (Proc.devRef .tc b) = W1 m ρ c (Proc.devRef .tc b) :=
  (edgeStep6 m ρ c b hb).trans (edge5 m ρ c b hb)
theorem edge7 (c : Dev nD) (b : Ref sig .tc) (hb : b ∈ edges) : W7 m ρ c (Proc.devRef .tc b) = W1 m ρ c (Proc.devRef .tc b) :=
  (edgeStep7 m ρ c b hb).trans (edge6 m ρ c b hb)
theorem edge8 (c : Dev nD) (b : Ref sig .tc) (hb : b ∈ edges) : W8 m ρ c (Proc.devRef .tc b) = W1 m ρ c (Proc.devRef .tc b) :=
  (edgeStep8 m ρ c b hb).trans (edge7 m ρ c b hb)
theorem edge9 (c : Dev nD) (b : Ref sig .tc) (hb : b ∈ edges) : W9 m ρ c (Proc.devRef .tc b) = W1 m ρ c (Proc.devRef .tc b) :=
  (edgeStep9 m ρ c b hb).trans (edge8 m ρ c b hb)
theorem edge10 (c : Dev nD) (b : Ref sig .tc) (hb : b ∈ edges) : W10 m ρ c (Proc.devRef .tc b) = W1 m ρ c (Proc.devRef .tc b) :=
  (edgeStep10 m ρ c b hb).trans (edge9 m ρ c b hb)
theorem edge11 (c : Dev nD) (b : Ref sig .tc) (hb : b ∈ edges) : W11 m ρ c (Proc.devRef .tc b) = W1 m ρ c (Proc.devRef .tc b) :=
  (edgeStep11 m ρ c b hb).trans (edge10 m ρ c b hb)
theorem edge12 (c : Dev nD) (b : Ref sig .tc) (hb : b ∈ edges) : W12 m ρ c (Proc.devRef .tc b) = W1 m ρ c (Proc.devRef .tc b) :=
  (edgeStep12 m ρ c b hb).trans (edge11 m ρ c b hb)
theorem edge13 (c : Dev nD) (b : Ref sig .tc) (hb : b ∈ edges) : W13 m ρ c (Proc.devRef .tc b) = W1 m ρ c (Proc.devRef .tc b) :=
  (edgeStep13 m ρ c b hb).trans (edge12 m ρ c b hb)

end Cert.KernelIdeal.Carry

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.Spec.lean ====
/-
  What the four kinds of kernel in this program compute, entry by entry, on the extended reals.

  A node-feature matrix has one row per node. The program alternates three dense steps with
  neighbourhood sums that the host performs:

  * `linBias x w b`   — each row of `x` times `w`, plus the bias row `b`;
  * `mm x w`          — each row of `x` times `w`;
  * `bnLeaky a b g β μ v` — to each entry of `a` add the bias, subtract the running mean, scale by the
                          reciprocal square root of the running variance plus a small constant, scale by
                          γ, add β, and keep the result where it is positive, a hundredth of it elsewhere;
  * `mlp g w₁ b₁ w₂ b₂` — one hidden layer with the same leaky rectifier, applied to the pooled rows.

  Parameter rows are one-row matrices, so an entry of column `q` reads them at `(0, q)`.
-/
import Idealize.ShloMosaic.PureOps.Ideal.Laws
import Idealize.ShloMosaic.Lib.ValueIdx

noncomputable section

open scoped BigOperators

namespace Cert.Spec

open Idealize.ShloMosaic Idealize.ShloMosaic.ValueIdx

/-- An `a × b` matrix of extended reals. -/
abbrev Mat (a b : ℕ) : Type := (⟨2, ![a, b]⟩ : Shape).Idx → EReal

/-- The leaky rectifier at one entry: the entry itself where it is positive, a hundredth of it elsewhere
    (the hundredth and the zero are the single-precision words the two programs share). -/
def leaky (h : EReal) : EReal :=
  Scalar.select (FloatOps.cmpf (F := Ideal) .ogt h (Ideal.ofBits .f32 0x00000000#32)) h
    (Ideal.ofBits .f32 0x3C23D70A#32 * h)

/-- Entry `(p, q)` of the product of `x` and `w`. -/
def dotAt {a n b : ℕ} (x : Mat a n) (w : Mat n b) (p : Fin a) (q : Fin b) : EReal :=
  ∑ k : Fin n, x (ix2 p k) * w (ix2 k q)

/-- Rows of `x` times `w`. -/
def mm {a n b : ℕ} (x : Mat a n) (w : Mat n b) : Mat a b := fun i => dotAt x w (i 0) (i 1)

/-- Rows of `x` times `w`, plus the bias row. -/
def linBias {a n b : ℕ} (x : Mat a n) (w : Mat n b) (bias : Mat 1 b) : Mat a b :=
  fun i => dotAt x w (i 0) (i 1) + bias (ix2 0 (i 1))

/-- Batch normalisation with running statistics at one entry, before the rectifier: the bias is added, the
    mean subtracted, and the result scaled by `rsqrt (variance + ε)`, then by γ, and β is added last. -/
def bnAt (x bq gq βq μq vq : EReal) : EReal :=
  (x + bq - μq) * Ideal.rsqrt (vq + Ideal.ofBits .f32 0x3727C5AC#32) * gq + βq

/-- Bias, batch normalisation and the leaky rectifier, entry by entry; the five parameter rows are read at the
    entry's column. -/
def bnLeaky {a b : ℕ} (x : Mat a b) (bias γ β μ v : Mat 1 b) : Mat a b :=
  fun i => leaky (bnAt (x i) (bias (ix2 0 (i 1))) (γ (ix2 0 (i 1))) (β (ix2 0 (i 1))) (μ (ix2 0 (i 1))) (v (ix2 0 (i 1))))

/-- The hidden layer of the pooled perceptron: rows of `g` times `w₁`, plus `b₁`, through the rectifier. -/
def hidden {a n h : ℕ} (g : Mat a n) (w₁ : Mat n h) (b₁ : Mat 1 h) : Mat a h :=
  fun i => leaky (dotAt g w₁ (i 0) (i 1) + b₁ (ix2 0 (i 1)))

/-- The pooled perceptron: the hidden layer times `w₂`, plus `b₂`. -/
def mlp {a n h o : ℕ} (g : Mat a n) (w₁ : Mat n h) (b₁ : Mat 1 h) (w₂ : Mat h o) (b₂ : Mat 1 o) : Mat a o :=
  linBias (hidden g w₁ b₁) w₂ b₂

end Cert.Spec

end
-- ==== Proof.BodyLinear.lean ====
/-
  The embedding's block: a block of 5000 node rows of 64 input features times the 64 × 128 embedding matrix, plus
  the bias row repeated down the block.
-/
import proofs.«179248_j25366076850805_1_alg».proof.Proof.Gen.KernelIdeal.Skeleton
import proofs.«179248_j25366076850805_1_alg».proof.Proof.LibMatmulAt
import proofs.«179248_j25366076850805_1_alg».proof.Proof.Spec
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx

/-- Where the product's two operand indices sit, for these dimension numbers: the left one reads the result's row and
    the contraction position, the right one the contraction position and the result's column. -/
theorem prod64_l0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem prod64_l1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem prod64_r0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem prod64_r1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product into the zero accumulator, read at `(p, q)`: the sum over `k` of left `(p, k)` times right `(k, q)`. -/
theorem prod64_at {φ₁ φ₂ : FTy} (l : FVec Ideal S5000x64 φ₁) (r : FVec Ideal S64x128 φ₂) (p : Fin 5000) (q : Fin 128) :
    matmul dot_S5000x64_S64x128_S5000x128_1_0_0_1_n_n none l r (constant S5000x128 .f32 0x00000000#32) (ix2 p q) = ∑ k : Fin 64, l (ix2 p k) * r (ix2 k q) :=
  MatmulAt.matmul_zero_ix2 dot_S5000x64_S64x128_S5000x128_1_0_0_1_n_n rfl rfl prod64_l0 prod64_l1 prod64_r0 prod64_r1 none l r p q

/-- The embedding's block, entry by entry. -/
theorem k0_pay1_eq (x : Vec Ideal S5000x64 .f32) (w : Vec Ideal S64x128 .f32) (b : Vec Ideal S1x128 .f32) :
    k0_pay1 (F := Ideal) x w b = Spec.linBias x w b := by
  funext i
  obtain ⟨p, q, rfl⟩ : ∃ (p : Fin 5000) (q : Fin 128), i = ix2 p q := ⟨i 0, i 1, eq_ix2 i⟩
  unfold k0_pay1
  rw [addf_apply, prod64_at, broadcastTo_1b_ab_apply, shapeCast_self]
  rfl

end Cert.KernelIdeal.Body

end
-- ==== Proof.Region0.lean ====
/-
  Region 0 (the node embedding): each of the ten points takes 5000 consecutive node rows of 64 input features, the whole
  64 × 128 embedding matrix and the bias row, and writes back the 5000 rows of products plus bias. Input and output
  blocks both start at row 5000·t, so point `t` writes back rows 5000·t … 5000·t + 4999 of the embedding of the
  WHOLE input array; the ten blocks tile the 50000 rows.
-/
import proofs.«179248_j25366076850805_1_alg».proof.Proof.Gen.KernelIdeal.Frame
import proofs.«179248_j25366076850805_1_alg».proof.Proof.BodyLinear
import Idealize.ShloMosaic.Lib.Pipeline.Value

noncomputable section

open scoped BigOperators

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)

-- the TensorCore's buffer contents when the region is entered, at the ideal instance
variable (V : (c : Dev nD) → (b : Ref sig .tc) → Buf (Elt Ideal) ((c : Thread nD τ).loc b))

/-- A buffer's contents as an `a × b` matrix of extended reals. -/
abbrev asMat0 (a b : ℕ) (x : (⟨2, ![a, b]⟩ : Shape).Idx → EReal) : (⟨2, ![a, b]⟩ : Shape).Idx → EReal := x

theorem hz0 : (![0, 0] : Fin 2 → Nat) = fun _ => 0 := funext fun a => by fin_cases a <;> rfl

/-- The printed index maps over the ten points: input and output blocks at block row `t`; the embedding matrix and the
    bias row at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the embedding of the whole input array. -/
theorem flushed0_eq (c : Dev nD) (t : Fin cfg0.N) :
    (dat0 V c).flushed 3 t = ((cfg0.win 3).blk t).view.read (Elt Ideal) (Spec.linBias (V c main_arg0) (V c main_arg3) (V c main_v27)) := by
  show (cfg0.win 3).cut (grid0.coords t) ((dat0 V c).after 3 t) = _
  rw [after0_3]
  unfold out0_3
  rw [View.canon_unit_zero hz0]
  simp only [View.ld_unit_zero (S := S5000x64) hz0, View.ld_unit_zero (S := S64x128) hz0, View.ld_unit_zero (S := S1x128) hz0]
  rw [Body.k0_pay1_eq]
  obtain ⟨e0, e1, e2, e3, e4, e5, e6, e7⟩ := idx_facts0 t
  funext j
  have hj0 : (j 0).val < 5000 := (j 0).isLt
  have hj1 : (j 1).val < 128 := (j 1).isLt
  show (∑ k : Fin 64, asMat0 50000 64 (V c main_arg0) (((cfg0.win 0).blk t).view.emb (ix2 (j 0) k)) * asMat0 64 128 (V c main_arg3) (((cfg0.win 1).blk t).view.emb (ix2 k (j 1))))
        + asMat0 1 128 (V c main_v27) (((cfg0.win 2).blk t).view.emb (ix2 0 (j 1)))
     = (∑ k : Fin 64, asMat0 50000 64 (V c main_arg0) (ix2 ((((cfg0.win 3).blk t).view.emb j) 0) k) * asMat0 64 128 (V c main_arg3) (ix2 k ((((cfg0.win 3).blk t).view.emb j) 1)))
        + asMat0 1 128 (V c main_v27) (ix2 0 ((((cfg0.win 3).blk t).view.emb j) 1))
  have hb : ((cfg0.win 2).blk t).view.emb (ix2 0 (j 1)) = ix2 0 ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  rw [hb]
  refine congrArg (· + _) (Finset.sum_congr rfl fun k _ => ?_)
  have h0 : ((cfg0.win 0).blk t).view.emb (ix2 (j 0) k) = ix2 ((((cfg0.win 3).blk t).view.emb j) 0) k := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  have h1 : ((cfg0.win 1).blk t).view.emb (ix2 k (j 1)) = ix2 k ((((cfg0.win 3).blk t).view.emb j) 1) := by
    funext a; apply Fin.ext
    match a with
    | ⟨0, _⟩ => show win0_1.index t (0 : Fin 2) * 64 + 1 * k.val = k.val; omega
    | ⟨1, _⟩ => show win0_1.index t (1 : Fin 2) * 128 + 1 * (j 1).val = win0_3.index t (1 : Fin 2) * 128 + 1 * (j 1).val; omega
  rw [h0, h1]
  try rfl

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v28).slice (win0_3.rect t)).set ↔ _
  rw [View.set_slice_whole, Rect.mem_set_unit]
  exact Iff.rfl

/-- The ten blocks tile the array: row `r` is in the block of point `r / 5000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5, e6, e7⟩ := idx_facts0 t
  have e6' : win0_3.index t (0 : Fin 2) = (i 0).val / 5000 := e6
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: the embedding of the input array as the region finds it. -/
theorem final0 (c : Dev nD) : (dat0 V c).arrAt 3 cfg0.N = Spec.linBias (V c main_arg0) (V c main_arg3) (V c main_v27) :=
  (dat0 V c).arrAt_eq_of_cover 3 _ (fun t _ => flushed0_eq V c t) (cover0)

end Cert.KernelIdeal.Region

end
-- ==== Proof.BodyMatmul.lean ====
/-
  The per-layer transform's block: a block of 5000 node rows times the layer's 128 × 128 weight matrix. Rounding
  the two operands to a shorter format changes nothing on the extended reals, and the product starts from zero, so
  an entry of the block is the plain sum over the 128 input features.
-/
import proofs.«179248_j25366076850805_1_alg».proof.Proof.Gen.KernelIdeal.Skeleton
import proofs.«179248_j25366076850805_1_alg».proof.Proof.LibMatmulAt
import proofs.«179248_j25366076850805_1_alg».proof.Proof.Spec
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx

/-- Where the product's two operand indices sit, for these dimension numbers: the left one reads the result's row and
    the contraction position, the right one the contraction position and the result's column. -/
theorem prod128_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem prod128_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem prod128_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem prod128_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, read at `(p, q)`: the sum over `k` of left `(p, k)` times right `(k, q)`. -/
theorem prod128_at {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q) = ∑ k : Fin 128, l (ix2 p k) * r (ix2 k q) :=
  MatmulAt.matmul_zero_ix2 dot_S5000x128_S128x128_S5000x128_1_0_0_1_n_n rfl rfl prod128_l0 prod128_l1 prod128_r0 prod128_r1 none l r p q

/-- The transform's block, entry by entry: rows of the node block times the weight matrix. -/
theorem k1_pay1_eq (x : Vec Ideal S5000x128 .f32) (w : Vec Ideal S128x128 .f32) :
    k1_pay1 (F := Ideal) x w = Spec.mm x w := by
  funext i
  obtain ⟨p, q, rfl⟩ : ∃ (p : Fin 5000) (q : Fin 128), i = ix2 p q := ⟨i 0, i 1, eq_ix2 i⟩
  unfold k1_pay1
  refine (prod128_at _ _ p q).trans ?_
  simp only [shapeCast_self]
  rfl

/-- The second and third layers' transforms are the same block function. -/
theorem k3_pay1_eq (x : Vec Ideal S5000x128 .f32) (w : Vec Ideal S128x128 .f32) :
    k3_pay1 (F := Ideal) x w = Spec.mm x w := (show k3_pay1 (F := Ideal) x w = k1_pay1 (F := Ideal) x w from rfl).trans (k1_pay1_eq x w)
theorem k5_pay1_eq (x : Vec Ideal S5000x128 .f32) (w : Vec Ideal S128x128 .f32) :
    k5_pay1 (F := Ideal) x w = Spec.mm x w := (show k5_pay1 (F := Ideal) x w = k1_pay1 (F := Ideal) x w from rfl).trans (k1_pay1_eq x w)

end Cert.KernelIdeal.Body

end
-- ==== Proof.Region1.lean ====
/-
  Region 1 (a per-layer transform): the grid's ten points each take 5000 consecutive node rows, multiply them by the
  whole 128 × 128 weight matrix and write the 5000 product rows back. Point `t`'s block of the input and of the output
  both start at row 5000·t, and the weight matrix is one block, so what point `t` writes back is rows
  5000·t … 5000·t + 4999 of the product of the WHOLE input with the weight matrix; the ten blocks tile the 50000 rows,
  so the output array ends as that product.
-/
import proofs.«179248_j25366076850805_1_alg».proof.Proof.Gen.KernelIdeal.Frame
import proofs.«179248_j25366076850805_1_alg».proof.Proof.BodyMatmul
import Idealize.ShloMosaic.Lib.Pipeline.Value

noncomputable section

open scoped BigOperators

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)

-- the TensorCore's buffer contents when the region is entered, at the ideal instance
variable (V : (c : Dev nD) → (b : Ref sig .tc) → Buf (Elt Ideal) ((c : Thread nD τ).loc b))

/-- A buffer's contents as an `a × b` matrix of extended reals. -/
abbrev asMat1 (a b : ℕ) (x : (⟨2, ![a, b]⟩ : Shape).Idx → EReal) : (⟨2, ![a, b]⟩ : Shape).Idx → EReal := x

theorem hz1 : (![0, 0] : Fin 2 → Nat) = fun _ => 0 := funext fun a => by fin_cases a <;> rfl

/-- The printed index maps over the ten points: input and output blocks sit at block row `t`, block column 0; the
    weight matrix at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the whole input array with the weight matrix. -/
theorem flushed1_eq (c : Dev nD) (t : Fin cfg1.N) :
    (dat1 V c).flushed 2 t = ((cfg1.win 2).blk t).view.read (Elt Ideal) (Spec.mm (V c main_v28) (V c main_v30)) := by
  show (cfg1.win 2).cut (grid1.coords t) ((dat1 V c).after 2 t) = _
  rw [after1_2]
  unfold out1_2
  rw [View.canon_unit_zero hz1]
  simp only [View.ld_unit_zero (S := S5000x128) hz1, View.ld_unit_zero (S := S128x128) hz1]
  rw [Body.k1_pay1_eq]
  obtain ⟨e0, e1, e2, e3, e4, e5⟩ := idx_facts1 t
  funext j
  show (∑ k : Fin 128, asMat1 50000 128 (V c main_v28) (((cfg1.win 0).blk t).view.emb (ix2 (j 0) k)) * asMat1 128 128 (V c main_v30) (((cfg1.win 1).blk t).view.emb (ix2 k (j 1))))
     = ∑ k : Fin 128, asMat1 50000 128 (V c main_v28) (ix2 ((((cfg1.win 2).blk t).view.emb j) 0) k) * asMat1 128 128 (V c main_v30) (ix2 k ((((cfg1.win 2).blk t).view.emb j) 1))
  refine Finset.sum_congr rfl fun k _ => ?_
  have hj0 : (j 0).val < 5000 := (j 0).isLt
  have hj1 : (j 1).val < 128 := (j 1).isLt
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [h0, h1]
  try rfl

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v31).slice (win1_2.rect t)).set ↔ _
  rw [View.set_slice_whole, Rect.mem_set_unit]
  exact Iff.rfl

/-- The ten blocks tile the array: row `r` is in the block of point `r / 5000`. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4, e5⟩ := idx_facts1 t
  have e4' : win1_2.index t (0 : Fin 2) = (i 0).val / 5000 := e4
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: the product of the input array, as the region finds it, with the weight matrix. -/
theorem final1 (c : Dev nD) : (dat1 V c).arrAt 2 cfg1.N = Spec.mm (V c main_v28) (V c main_v30) :=
  (dat1 V c).arrAt_eq_of_cover 2 _ (fun t _ => flushed1_eq V c t) (cover1)

end Cert.KernelIdeal.Region

end
-- ==== Proof.LibRowInDim.lean ====
/-
  Two host broadcasts around a unit row, read at an entry: a vector laid down as one row
  (`broadcast_in_dim` with dims [1], [b] to [1, b]) and one row stretched over a rows (dims [0, 1], [1, b] to [a, b]).
-/
import Idealize.ShloMosaic.Lib.Pipeline.Value
import Idealize.ShloMosaic.Lib.ValueIdx

namespace Cert.LibRowInDim

open Idealize.ShloMosaic Idealize.ShloMosaic.ValueIdx

variable {α : Type}

/-- A [b] array broadcast to [1, b] along dims [1] reads, at (u, k), the operand at k. -/
theorem bcast_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- A [1, b] array broadcast to [a, b] along dims [0, 1] reads, at (p, k), the operand's one row at column k. -/
theorem bcast_1b_ab_apply {a b : ℕ} (x : (⟨2, ![1, b]⟩ : Shape).Idx → α)
    (h : (⟨2, ![1, b]⟩ : Shape).BroadcastsInDim ⟨2, ![a, b]⟩ ![0, 1]) (p : Fin a) (k : Fin b) :
    broadcastInDim ⟨2, ![a, b]⟩ ![0, 1] h x (ix2 p k) = x (ix2 (0 : Fin 1) k) := by
  refine broadcastInDim_apply ![0, 1] h x (ix2 p k) (ix2 (0 : Fin 1) k) fun ax => ?_
  match ax with
  | ⟨0, _⟩ => rfl
  | ⟨1, _⟩ =>
    show k.val = if b = 1 then 0 else k.val
    split
    · have := k.isLt; omega
    · rfl

end Cert.LibRowInDim
-- ==== Proof.LibHostRead.lean ====
/-
  Two host idioms read at an index, at the ideal instance.

  `splat_at`     a scalar float constant broadcast to any shape (`broadcast_in_dim` with no dimensions), read at
                 an index: the extended real the constant's word denotes, whatever the index;
  `hostDivf_at`  the host's quotient of two arrays, read at an index: the quotient of the two entries.

  Both keep a later unification from having to open a constant's word or a broadcast: after rewriting with
  them a goal mentions the word and the two entries, nothing else.
-/
import Idealize.ShloMosaic.PureOps.Ideal.Laws
import Idealize.ShloMosaic.Lib.ValueIdx
import Idealize.ShloMosaic.Lib.Pipeline.Value

noncomputable section

namespace Idealize.ShloMosaic.HostRead

open Idealize.ShloMosaic Idealize.ShloMosaic.ValueIdx

/-- A constant splat to any shape, read at an index: the constant's word. -/
theorem splat_at {t : Shape} (h : (⟨0, ![]⟩ : Shape).BroadcastsInDim t ![]) (w : BitVec 32) (j : t.Idx) :
    broadcastInDim t ![] h (constant (F := Ideal) ⟨0, ![]⟩ .f32 w) j = Ideal.ofBits .f32 w := by
  rw [broadcastInDim_apply ![] h _ j ix0 (fun a => a.elim0), constant_apply]

/-- The host's quotient of two arrays, read at an index. -/
theorem hostDivf_at {s : Shape} {φ : FTy} (a b : FVec Ideal s φ) (i : s.Idx) :
    Host.divf a b i = Ideal.div (a i) (b i) := rfl

end Idealize.ShloMosaic.HostRead

end
-- ==== Proof.RefBridge.lean ====
/-
  The reference program's dense steps are the specification's functions.

  Each dense step of the reference is a small tree of host operations: a `dot_general` (a sum over the contracted
  feature), parameter vectors laid down as one row and stretched down the 50000 (or 64) rows, entrywise arithmetic, a
  comparison with zero and a select. Read at an entry `(p, q)`, a stretched row is the row at `(0, q)`, a splatted
  constant is its word, and every other operation acts on the entry alone — so each tree is the specification's
  function of the same operands. The reference's stages are these trees of earlier stages by unfolding.
-/
import proofs.«179248_j25366076850805_1_alg».proof.Proof.RefReadP
import proofs.«179248_j25366076850805_1_alg».proof.Proof.Spec
import proofs.«179248_j25366076850805_1_alg».proof.Proof.LibMatmulAt
import proofs.«179248_j25366076850805_1_alg».proof.Proof.LibRowInDim
import proofs.«179248_j25366076850805_1_alg».proof.Proof.LibHostRead

noncomputable section

open scoped BigOperators

namespace Cert.ReferenceIdeal.Bridge

open Cert.ReferenceIdeal Cert.ReferenceIdeal.Gen Cert.ReferenceIdeal.ReadP Idealize.ShloMosaic Idealize.ShloMosaic.ValueIdx

/-! ## Rows, vectors and constants read at an entry -/

/-- A parameter row stretched down the 50000 node rows reads, at `(p, q)`, the row at `(0, q)`. -/
theorem row_at (y : FVec Ideal S1x128 .f32) (p : Fin 50000) (q : Fin 128) :
    broadcastInDim S50000x128 ![0, 1] bcast_S1x128_S50000x128_0_1 y (ix2 p q) = y (ix2 0 q) :=
  Cert.LibRowInDim.bcast_1b_ab_apply y _ p q
/-- A parameter vector laid down as one row reads, at `(0, q)`, the vector at `q`. -/
theorem vec_at (v : FVec Ideal S128 .f32) (u : Fin 1) (q : Fin 128) :
    broadcastInDim S1x128 ![1] bcast_S128_S1x128_1 v (ix2 u q) = v (ix1 q) :=
  Cert.LibRowInDim.bcast_b_1b_apply v _ u q
theorem row64_at (y : FVec Ideal S1x64 .f32) (p : Fin 64) (q : Fin 64) :
    broadcastInDim S64x64 ![0, 1] bcast_S1x64_S64x64_0_1 y (ix2 p q) = y (ix2 0 q) :=
  Cert.LibRowInDim.bcast_1b_ab_apply y _ p q
theorem row8_at (y : FVec Ideal S1x8 .f32) (p : Fin 64) (q : Fin 8) :
    broadcastInDim S64x8 ![0, 1] bcast_S1x8_S64x8_0_1 y (ix2 p q) = y (ix2 0 q) :=
  Cert.LibRowInDim.bcast_1b_ab_apply y _ p q
/-- A splatted constant reads its word at every index. -/
theorem splat_nodes (w : BitVec 32) (j : S50000x128.Idx) :
    broadcastInDim S50000x128 ![] bcast_S_S50000x128 (constant (F := Ideal) S_ .f32 w) j = Ideal.ofBits .f32 w :=
  HostRead.splat_at _ w j
theorem splat_vec (w : BitVec 32) (j : S128.Idx) :
    broadcastInDim S128 ![] bcast_S_S128 (constant (F := Ideal) S_ .f32 w) j = Ideal.ofBits .f32 w :=
  HostRead.splat_at _ w j
theorem splat_hidden (w : BitVec 32) (j : S64x64.Idx) :
    broadcastInDim S64x64 ![] bcast_S_S64x64 (constant (F := Ideal) S_ .f32 w) j = Ideal.ofBits .f32 w :=
  HostRead.splat_at _ w j
/-- The host's reciprocal square root acts entry by entry. -/
theorem rsqrt_at (x : FVec Ideal S128 .f32) (j : S128.Idx) : Host.rsqrt (F := Ideal) x j = Ideal.rsqrt (x j) := rfl

/-! ## Products -/

/-- The embedding's product: 64 input features contracted. -/
theorem dotEmb_eq (x : FVec Ideal S50000x64 .f32) (w : FVec Ideal S64x128 .f32) :
    Host.dotGeneral (F := Ideal) dot_S50000x64_S64x128_S50000x128_1_0_0_1_n_n none x w = Spec.mm x w := by
  funext i
  obtain ⟨p, q, rfl⟩ : ∃ (p : Fin 50000) (q : Fin 128), i = ix2 p q := ⟨i 0, i 1, eq_ix2 i⟩
  exact MatmulAt.dotGeneral_ix2 _ rfl rfl lhs_main_v27_0 lhs_main_v27_1 rhs_main_v27_0 rhs_main_v27_1 none x w p q

/-- A layer's transform: 128 features contracted. -/
theorem dotLayer_eq (x : FVec Ideal S50000x128 .f32) (w : FVec Ideal S128x128 .f32) :
    Host.dotGeneral (F := Ideal) dot_S50000x128_S128x128_S50000x128_1_0_0_1_n_n none x w = Spec.mm x w := by
  funext i
  obtain ⟨p, q, rfl⟩ : ∃ (p : Fin 50000) (q : Fin 128), i = ix2 p q := ⟨i 0, i 1, eq_ix2 i⟩
  exact MatmulAt.dotGeneral_ix2 _ rfl rfl lhs_main_v33_0 lhs_main_v33_1 rhs_main_v33_0 rhs_main_v33_1 none x w p q

/-- The perceptron's first product. -/
theorem dotHidden_eq (x : FVec Ideal S64x128 .f32) (w : FVec Ideal S128x64 .f32) :
    Host.dotGeneral (F := Ideal) dot_S64x128_S128x64_S64x64_1_0_0_1_n_n none x w = Spec.mm x w := by
  funext i
  obtain ⟨p, q, rfl⟩ : ∃ (p : Fin 64) (q : Fin 64), i = ix2 p q := ⟨i 0, i 1, eq_ix2 i⟩
  exact MatmulAt.dotGeneral_ix2 _ rfl rfl lhs_main_v181_0 lhs_main_v181_1 rhs_main_v181_0 rhs_main_v181_1 none x w p q

/-- The perceptron's second product. -/
theorem dotOut_eq (x : FVec Ideal S64x64 .f32) (w : FVec Ideal S64x8 .f32) :
    Host.dotGeneral (F := Ideal) dot_S64x64_S64x8_S64x8_1_0_0_1_n_n none x w = Spec.mm x w := by
  funext i
  obtain ⟨p, q, rfl⟩ : ∃ (p : Fin 64) (q : Fin 8), i = ix2 p q := ⟨i 0, i 1, eq_ix2 i⟩
  exact MatmulAt.dotGeneral_ix2 _ rfl rfl lhs_main_v190_0 lhs_main_v190_1 rhs_main_v190_0 rhs_main_v190_1 none x w p q

/-! ## The embedding -/

/-- The embedding stage is the specification's product-plus-bias of the arguments, the bias laid down as one row. -/
theorem v30_eq (x0 : (⟨S50000x64, .f32⟩ : BufTy).Contents (Elt Ideal)) (x3 : (⟨S64x128, .f32⟩ : BufTy).Contents (Elt Ideal)) (x4 : (⟨S128, .f32⟩ : BufTy).Contents (Elt Ideal)) :
    val_main_v30 (F := Ideal) x0 x3 x4 = Spec.linBias x0 x3 (val_main_v28 (F := Ideal) x4) := by
  funext i
  obtain ⟨p, q, rfl⟩ : ∃ (p : Fin 50000) (q : Fin 128), i = ix2 p q := ⟨i 0, i 1, eq_ix2 i⟩
  show val_main_v27 (F := Ideal) x0 x3 (ix2 p q) + val_main_v29 (F := Ideal) x4 (ix2 p q) = _
  rw [show val_main_v27 (F := Ideal) x0 x3 = Spec.mm x0 x3 from dotEmb_eq x0 x3]
  unfold val_main_v29
  rw [row_at]
  rfl

/-! ## Bias, normalisation, rectifier -/

/-- The reference's scale row: the reciprocal square root of the variance vector plus the small constant, laid down as
    one row. -/
def invStdRow (v : FVec Ideal S128 .f32) : FVec Ideal S1x128 .f32 :=
  broadcastInDim S1x128 ![1] bcast_S128_S1x128_1
    (Host.rsqrt (F := Ideal) (addf v (broadcastInDim S128 ![] bcast_S_S128 (constant (F := Ideal) S_ .f32 0x3727C5AC#32))))

/-- Its entry at column `q`. -/
theorem invStdRow_at (v : FVec Ideal S128 .f32) (u : Fin 1) (q : Fin 128) :
    invStdRow v (ix2 u q) = Ideal.rsqrt (v (ix1 q) + Ideal.ofBits .f32 0x3727C5AC#32) := by
  unfold invStdRow
  rw [vec_at, rsqrt_at, addf_apply, splat_vec]

/-- The reference's normalisation step as one tree of host operations over its operands: the aggregated features, four
    parameter rows, and the variance as a vector (the reference takes the reciprocal square root before laying it down). -/
def bnTree (a : FVec Ideal S50000x128 .f32) (bias γ β μ : FVec Ideal S1x128 .f32) (v : FVec Ideal S128 .f32) : FVec Ideal S50000x128 .f32 :=
  let h : FVec Ideal S50000x128 .f32 :=
    addf (mulf (mulf (subf (addf a (broadcastInDim S50000x128 ![0, 1] bcast_S1x128_S50000x128_0_1 bias))
        (broadcastInDim S50000x128 ![0, 1] bcast_S1x128_S50000x128_0_1 μ))
        (broadcastInDim S50000x128 ![0, 1] bcast_S1x128_S50000x128_0_1 (invStdRow v)))
        (broadcastInDim S50000x128 ![0, 1] bcast_S1x128_S50000x128_0_1 γ))
      (broadcastInDim S50000x128 ![0, 1] bcast_S1x128_S50000x128_0_1 β)
  select (cmpf .ogt h (broadcastInDim S50000x128 ![] bcast_S_S50000x128 (constant (F := Ideal) S_ .f32 0x00000000#32))) h
    (mulf (broadcastInDim S50000x128 ![] bcast_S_S50000x128 (constant (F := Ideal) S_ .f32 0x3C23D70A#32)) h)

/-- The tree is the specification's entrywise function, the variance laid down as one row like the other parameters. -/
theorem bnTree_eq (a : FVec Ideal S50000x128 .f32) (bias γ β μ : FVec Ideal S1x128 .f32) (v : FVec Ideal S128 .f32) :
    bnTree a bias γ β μ v = Spec.bnLeaky a bias γ β μ (broadcastInDim S1x128 ![1] bcast_S128_S1x128_1 v) := by
  funext i
  obtain ⟨p, q, rfl⟩ : ∃ (p : Fin 50000) (q : Fin 128), i = ix2 p q := ⟨i 0, i 1, eq_ix2 i⟩
  simp only [bnTree, select_apply, cmpf_apply, mulf_apply, addf_apply, subf_apply]
  rw [row_at bias, row_at μ, row_at γ, row_at β, row_at (invStdRow v), invStdRow_at, splat_nodes, splat_nodes]
  show _ = Spec.leaky (Spec.bnAt (a (ix2 p q)) (bias (ix2 0 q)) (γ (ix2 0 q)) (β (ix2 0 q)) (μ (ix2 0 q))
    (broadcastInDim S1x128 ![1] bcast_S128_S1x128_1 v (ix2 0 q)))
  rw [vec_at]
  rfl

/-- The three layers' normalisation stages are that tree of their aggregation stage and parameter rows. -/
theorem v79_tree (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S3x128x128, .f32⟩ : BufTy).Contents (Elt Ideal)) (x6 x7 x8 x9 x10 : (⟨S3x128, .f32⟩ : BufTy).Contents (Elt Ideal)) :
    val_main_v79 (F := Ideal) x0 x1 x3 x4 x5 x6 x7 x8 x9 x10 = bnTree (val_main_v46 (F := Ideal) x0 x1 x3 x4 x5) (val_main_v49 (F := Ideal) x6)
      (val_main_v67 (F := Ideal) x7) (val_main_v72 (F := Ideal) x8) (val_main_v54 (F := Ideal) x9) (val_main_v58 (F := Ideal) x10) := rfl
theorem v128_tree (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S3x128x128, .f32⟩ : BufTy).Contents (Elt Ideal)) (x6 x7 x8 x9 x10 : (⟨S3x128, .f32⟩ : BufTy).Contents (Elt Ideal)) :
    val_main_v128 (F := Ideal) x0 x1 x3 x4 x5 x6 x7 x8 x9 x10 = bnTree (val_main_v95 (F := Ideal) x0 x1 x3 x4 x5 x6 x7 x8 x9 x10) (val_main_v98 (F := Ideal) x6)
      (val_main_v116 (F := Ideal) x7) (val_main_v121 (F := Ideal) x8) (val_main_v103 (F := Ideal) x9) (val_main_v107 (F := Ideal) x10) := rfl
theorem v177_tree (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S3x128x128, .f32⟩ : BufTy).Contents (Elt Ideal)) (x6 x7 x8 x9 x10 : (⟨S3x128, .f32⟩ : BufTy).Contents (Elt Ideal)) :
    val_main_v177 (F := Ideal) x0 x1 x3 x4 x5 x6 x7 x8 x9 x10 = bnTree (val_main_v144 (F := Ideal) x0 x1 x3 x4 x5 x6 x7 x8 x9 x10) (val_main_v147 (F := Ideal) x6)
      (val_main_v165 (F := Ideal) x7) (val_main_v170 (F := Ideal) x8) (val_main_v152 (F := Ideal) x9) (val_main_v156 (F := Ideal) x10) := rfl

/-! ## The pooled perceptron -/

/-- The reference's perceptron as one tree over its operands. -/
def mlpTree (g : FVec Ideal S64x128 .f32) (w₁ : FVec Ideal S128x64 .f32) (b₁ : FVec Ideal S1x64 .f32) (w₂ : FVec Ideal S64x8 .f32) (b₂ : FVec Ideal S1x8 .f32) : FVec Ideal S64x8 .f32 :=
  let z : FVec Ideal S64x64 .f32 := addf (Host.dotGeneral (F := Ideal) dot_S64x128_S128x64_S64x64_1_0_0_1_n_n none g w₁)
    (broadcastInDim S64x64 ![0, 1] bcast_S1x64_S64x64_0_1 b₁)
  let r : FVec Ideal S64x64 .f32 := select (cmpf .ogt z (broadcastInDim S64x64 ![] bcast_S_S64x64 (constant (F := Ideal) S_ .f32 0x00000000#32))) z
    (mulf (broadcastInDim S64x64 ![] bcast_S_S64x64 (constant (F := Ideal) S_ .f32 0x3C23D70A#32)) z)
  addf (Host.dotGeneral (F := Ideal) dot_S64x64_S64x8_S64x8_1_0_0_1_n_n none r w₂) (broadcastInDim S64x8 ![0, 1] bcast_S1x8_S64x8_0_1 b₂)

/-- The hidden layer of the tree is the specification's. -/
theorem hidden_eq (g : FVec Ideal S64x128 .f32) (w₁ : FVec Ideal S128x64 .f32) (b₁ : FVec Ideal S1x64 .f32) :
    (let z : FVec Ideal S64x64 .f32 := addf (Host.dotGeneral (F := Ideal) dot_S64x128_S128x64_S64x64_1_0_0_1_n_n none g w₁)
        (broadcastInDim S64x64 ![0, 1] bcast_S1x64_S64x64_0_1 b₁)
     select (cmpf .ogt z (broadcastInDim S64x64 ![] bcast_S_S64x64 (constant (F := Ideal) S_ .f32 0x00000000#32))) z
       (mulf (broadcastInDim S64x64 ![] bcast_S_S64x64 (constant (F := Ideal) S_ .f32 0x3C23D70A#32)) z))
    = Spec.hidden g w₁ b₁ := by
  funext i
  obtain ⟨p, q, rfl⟩ : ∃ (p : Fin 64) (q : Fin 64), i = ix2 p q := ⟨i 0, i 1, eq_ix2 i⟩
  simp only [select_apply, cmpf_apply, mulf_apply, addf_apply]
  rw [row64_at b₁, splat_hidden, splat_hidden, dotHidden_eq]
  rfl

theorem mlpTree_eq (g : FVec Ideal S64x128 .f32) (w₁ : FVec Ideal S128x64 .f32) (b₁ : FVec Ideal S1x64 .f32) (w₂ : FVec Ideal S64x8 .f32) (b₂ : FVec Ideal S1x8 .f32) :
    mlpTree g w₁ b₁ w₂ b₂ = Spec.mlp g w₁ b₁ w₂ b₂ := by
  funext i
  obtain ⟨p, q, rfl⟩ : ∃ (p : Fin 64) (q : Fin 8), i = ix2 p q := ⟨i 0, i 1, eq_ix2 i⟩
  unfold mlpTree
  rw [hidden_eq g w₁ b₁]
  show Host.dotGeneral (F := Ideal) dot_S64x64_S64x8_S64x8_1_0_0_1_n_n none (Spec.hidden g w₁ b₁) w₂ (ix2 p q)
      + broadcastInDim S64x8 ![0, 1] bcast_S1x8_S64x8_0_1 b₂ (ix2 p q) = _
  rw [dotOut_eq, row8_at]
  rfl

/-- The reference's result is that tree of the pooled stage and the perceptron's parameters. -/
theorem v193_tree (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x128, .f32⟩ : BufTy).Contents (Elt Ideal)) (x4 : (⟨S128, .f32⟩ : BufTy).Contents (Elt Ideal)) (x5 : (⟨S3x128x128, .f32⟩ : BufTy).Contents (Elt Ideal)) (x6 x7 x8 x9 x10 : (⟨S3x128, .f32⟩ : BufTy).Contents (Elt Ideal))
    (x11 : (⟨S128x64, .f32⟩ : BufTy).Contents (Elt Ideal)) (x12 : (⟨S64, .f32⟩ : BufTy).Contents (Elt Ideal)) (x13 : (⟨S64x8, .f32⟩ : BufTy).Contents (Elt Ideal)) (x14 : (⟨S8, .f32⟩ : BufTy).Contents (Elt Ideal)) :
    val_main_v193 (F := Ideal) x0 x1 x2 x3 x4 x5 x6 x7 x8 x9 x10 x11 x12 x13 x14
      = mlpTree (val_main_v180 (F := Ideal) x0 x1 x2 x3 x4 x5 x6 x7 x8 x9 x10) x11 (val_main_v182 (F := Ideal) x12) x13 (val_main_v191 (F := Ideal) x14) := rfl

end Cert.ReferenceIdeal.Bridge

end
-- ==== Proof.LibRowOfVector.lean ====
/-
  A vector laid down as a one-row matrix, two ways.

  A `[b]` vector reshaped to `[1, b]` and the same vector broadcast into `[1, b]` along the second axis are one array:
  entry `(0, q)` of either is entry `q` of the vector.
-/
import Idealize.ShloMosaic.Lib.Pipeline.Value
import Idealize.ShloMosaic.Lib.ValueLayout
import Idealize.ShloMosaic.Lib.ValueIdx

namespace Cert.LibRowOfVector

open Idealize.ShloMosaic Idealize.ShloMosaic.ValueIdx

/-- For `b ≠ 1`, the reshape of a `[b]` vector to `[1, b]` is its broadcast into `[1, b]` along axis 1. -/
theorem shapeCast_eq_broadcastInDim {b : ℕ} {α : Type} (hb : b ≠ 1) (v : (⟨1, ![b]⟩ : Shape).Idx → α)
    (h : (⟨1, ![b]⟩ : Shape).ShapeCasts ⟨2, ![1, b]⟩) (h' : (⟨1, ![b]⟩ : Shape).BroadcastsInDim ⟨2, ![1, b]⟩ ![1]) :
    shapeCast ⟨2, ![1, b]⟩ v h = broadcastInDim ⟨2, ![1, b]⟩ ![1] h' v := by
  funext i
  obtain ⟨u, q, rfl⟩ : ∃ (u : Fin 1) (q : Fin b), i = ix2 u q := ⟨i 0, i 1, eq_ix2 i⟩
  rw [shapeCast_a_1a_apply v h u q]
  refine (broadcastInDim_apply ![1] h' v (ix2 u q) (ix1 q) fun a => ?_).symm
  match a with
  | ⟨0, _⟩ =>
    show q.val = if b = 1 then 0 else q.val
    rw [if_neg hb]

end Cert.LibRowOfVector
-- ==== Proof.Chain1.lean ====
/-
  Boundaries 1 to 4, read against the reference's stages.

  Boundary 1 (after the first stretch of host operations): the edge sources, edge targets and edge weights are the
  reference's stages of the edge list — the two programs perform the same operations there — and the embedding's bias,
  reshaped to one row, is the reference's bias row. Boundary 2 (after the embedding region): the node embedding is the
  reference's. Boundary 3: the first layer's weight matrix. Boundary 4 (after the first transform region): the
  transformed features are the reference's.
-/
import proofs.«179248_j25366076850805_1_alg».proof.Proof.ChainArgs
import proofs.«179248_j25366076850805_1_alg».proof.Proof.Carry
import proofs.«179248_j25366076850805_1_alg».proof.Proof.Region0
import proofs.«179248_j25366076850805_1_alg».proof.Proof.Region1
import proofs.«179248_j25366076850805_1_alg».proof.Proof.RefBridge
import proofs.«179248_j25366076850805_1_alg».proof.Proof.LibRowOfVector

noncomputable section

namespace Cert.KernelIdeal.Chain

open Cert.KernelIdeal Cert.KernelIdeal.Gen Cert.ReferenceIdeal.ReadP Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Boundary 1 -/

theorem l1_arg0 : W1 m ρ c (Proc.devRef .tc main_arg0) = A0 m c := by
  host_keep hostOps0
theorem l1_arg3 : W1 m ρ c (Proc.devRef .tc main_arg3) = A3 m c := by
  host_keep hostOps0

/-- The edge sources: the first row of the edge list followed by the self-loops. -/
theorem l1_v3 : W1 m ρ c (Proc.devRef .tc main_v3) = val_main_v3 (F := Ideal) (A1 m c) := by
  show StableHlo.after hostOps0 (W0 m ρ c) (Proc.devRef .tc main_v3) = _
  after_results_simp
  rfl
/-- The edge targets: the second row of the edge list followed by the self-loops. -/
theorem l1_v6 : W1 m ρ c (Proc.devRef .tc main_v6) = val_main_v6 (F := Ideal) (A1 m c) := by
  show StableHlo.after hostOps0 (W0 m ρ c) (Proc.devRef .tc main_v6) = _
  after_results_simp
  rfl
/-- The edge weights: the product of the two endpoints' reciprocal square-root degrees. -/
theorem l1_v26 : W1 m ρ c (Proc.devRef .tc main_v26) = val_main_v26 (F := Ideal) (A1 m c) := by
  show StableHlo.after hostOps0 (W0 m ρ c) (Proc.devRef .tc main_v26) = _
  after_results_simp
  rfl
/-- The embedding's bias reshaped to one row is the reference's bias laid down as one row. -/
theorem l1_v27 : W1 m ρ c (Proc.devRef .tc main_v27) = val_main_v28 (F := Ideal) (A4 m c) := by
  show StableHlo.after hostOps0 (W0 m ρ c) (Proc.devRef .tc main_v27) = _
  after_results_simp
  exact Cert.LibRowOfVector.shapeCast_eq_broadcastInDim (by decide) _ _ _

/-! ## Boundary 2: the node embedding -/

theorem l2_v28 : W2 m ρ c (Proc.devRef .tc main_v28) = val_main_v30 (F := Ideal) (A0 m c) (A3 m c) (A4 m c) := by
  refine (W2_arr m ρ c 3).trans ((Region.final0 (V1 m ρ) c).trans ?_)
  show Spec.linBias (W1 m ρ c (Proc.devRef .tc main_arg0)) (W1 m ρ c (Proc.devRef .tc main_arg3)) (W1 m ρ c (Proc.devRef .tc main_v27)) = _
  rw [l1_arg0 m ρ c, l1_arg3 m ρ c, l1_v27 m ρ c]
  exact (Cert.ReferenceIdeal.Bridge.v30_eq _ _ _).symm

/-! ## Boundary 3: the next layer's weight matrix -/

theorem l3_v30 : W3 m ρ c (Proc.devRef .tc main_v30) = val_main_v32 (F := Ideal) (A5 m c) := by
  show StableHlo.after hostOps1 (W2 m ρ c) (Proc.devRef .tc main_v30) = _
  after_results
  rw [Carry.arg2 m ρ c main_arg5 (by decide)]
  rfl
theorem l3_v28 : W3 m ρ c (Proc.devRef .tc main_v28) = W2 m ρ c (Proc.devRef .tc main_v28) := by
  host_keep hostOps1

/-! ## Boundary 4: the layer's transform -/

theorem l4_v31 : W4 m ρ c (Proc.devRef .tc main_v31) = val_main_v33 (F := Ideal) (A0 m c) (A3 m c) (A4 m c) (A5 m c) := by
  refine (W4_arr m ρ c 2).trans ((Region.final1 (V3 m ρ) c).trans ?_)
  show Spec.mm (W3 m ρ c (Proc.devRef .tc main_v28)) (W3 m ρ c (Proc.devRef .tc main_v30)) = _
  rw [l3_v28 m ρ c, l2_v28 m ρ c, l3_v30 m ρ c]
  exact (Cert.ReferenceIdeal.Bridge.dotLayer_eq _ _).symm

end Cert.KernelIdeal.Chain

end
-- ==== Proof.BodyBn.lean ====
/-
  The normalisation's block, entry by entry: every operation in it acts on one entry of the 5000-row block and on
  the same column of the five parameter rows, which are repeated down the block.
-/
import proofs.«179248_j25366076850805_1_alg».proof.Proof.Gen.KernelIdeal.Skeleton
import proofs.«179248_j25366076850805_1_alg».proof.Proof.LibMatmulAt
import proofs.«179248_j25366076850805_1_alg».proof.Proof.Spec
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx

/-- The entrywise function at an entry of one matrix and at an entry of another agree when the two entries agree and the
    five rows agree at the two entries' columns: it depends on nothing else. -/
theorem bn_entry {a a' : ℕ} (xb : Spec.Mat a 128) (bb gb βb μb vb : Spec.Mat 1 128) (X : Spec.Mat a' 128) (B G Be Mu Va : Spec.Mat 1 128)
    (j : (⟨2, ![a, 128]⟩ : Shape).Idx) (i : (⟨2, ![a', 128]⟩ : Shape).Idx)
    (h0 : xb j = X i) (h1 : bb (ix2 0 (j 1)) = B (ix2 0 (i 1))) (h2 : gb (ix2 0 (j 1)) = G (ix2 0 (i 1)))
    (h3 : βb (ix2 0 (j 1)) = Be (ix2 0 (i 1))) (h4 : μb (ix2 0 (j 1)) = Mu (ix2 0 (i 1))) (h5 : vb (ix2 0 (j 1)) = Va (ix2 0 (i 1))) :
    Spec.bnLeaky xb bb gb βb μb vb j = Spec.bnLeaky X B G Be Mu Va i := by
  show Spec.leaky (Spec.bnAt (xb j) (bb (ix2 0 (j 1))) (gb (ix2 0 (j 1))) (βb (ix2 0 (j 1))) (μb (ix2 0 (j 1))) (vb (ix2 0 (j 1))))
     = Spec.leaky (Spec.bnAt (X i) (B (ix2 0 (i 1))) (G (ix2 0 (i 1))) (Be (ix2 0 (i 1))) (Mu (ix2 0 (i 1))) (Va (ix2 0 (i 1))))
  rw [h0, h1, h2, h3, h4, h5]

/-- A parameter row repeated down the block reads, at `(p, q)`, the row at `(0, q)`. -/
theorem row_at (v : Vec Ideal S1x128 .f32) (p : Fin 5000) (q : Fin 128) :
    broadcastTo S5000x128 (shapeCast S1x128 v shapeCasts_S1x128_S1x128) broadcasts_S1x128_S5000x128 (ix2 p q) = v (ix2 0 q) := by
  rw [broadcastTo_1b_ab_apply, shapeCast_self]

/-- The same for a row computed in the kernel (the reciprocal square root of the variance row). -/
theorem row_at' (v : FVec Ideal S1x128 .f32) (p : Fin 5000) (q : Fin 128) :
    broadcastTo S5000x128 v broadcasts_S1x128_S5000x128 (ix2 p q) = v (ix2 0 q) :=
  broadcastTo_1b_ab_apply v _ p q

/-- The normalisation's block is the entrywise bias, normalisation and leaky rectifier of the block and the rows. The
    kernel's operands arrive in the order bias, γ, β, mean, variance; its loads name them `v2`, `v17`, `v21`, `v11`, `v6`. -/
theorem k2_pay1_eq (x : Vec Ideal S5000x128 .f32) (bias var mean γ β : Vec Ideal S1x128 .f32) :
    k2_pay1 (F := Ideal) x bias var mean γ β = Spec.bnLeaky x bias γ β mean var := by
  funext i
  obtain ⟨p, q, rfl⟩ : ∃ (p : Fin 5000) (q : Fin 128), i = ix2 p q := ⟨i 0, i 1, eq_ix2 i⟩
  unfold k2_pay1
  simp only [select_apply, cmpf_apply, mulf_apply, addf_apply, subf_apply, broadcast_apply, row_at, row_at', shapeCast_self]
  rfl

theorem k4_pay1_eq (x : Vec Ideal S5000x128 .f32) (bias var mean γ β : Vec Ideal S1x128 .f32) :
    k4_pay1 (F := Ideal) x bias var mean γ β = Spec.bnLeaky x bias γ β mean var :=
  (show k4_pay1 (F := Ideal) x bias var mean γ β = k2_pay1 (F := Ideal) x bias var mean γ β from rfl).trans (k2_pay1_eq x bias var mean γ β)
theorem k6_pay1_eq (x : Vec Ideal S5000x128 .f32) (bias var mean γ β : Vec Ideal S1x128 .f32) :
    k6_pay1 (F := Ideal) x bias var mean γ β = Spec.bnLeaky x bias γ β mean var :=
  (show k6_pay1 (F := Ideal) x bias var mean γ β = k2_pay1 (F := Ideal) x bias var mean γ β from rfl).trans (k2_pay1_eq x bias var mean γ β)

end Cert.KernelIdeal.Body

end
-- ==== Proof.Region2.lean ====
/-
  Region 2 (bias, batch normalisation, leaky rectifier): each of the ten points takes 5000 consecutive node rows and
  the five whole parameter rows, and writes back the entrywise result. Input and output blocks both start at row
  5000·t and every parameter row is one block, so point `t` writes back rows 5000·t … 5000·t + 4999 of the entrywise
  function of the WHOLE input array; the ten blocks tile the 50000 rows.
-/
import proofs.«179248_j25366076850805_1_alg».proof.Proof.Gen.KernelIdeal.Frame
import proofs.«179248_j25366076850805_1_alg».proof.Proof.BodyBn
import Idealize.ShloMosaic.Lib.Pipeline.Value

noncomputable section

open scoped BigOperators

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)

-- the TensorCore's buffer contents when the region is entered, at the ideal instance
variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the ten points: input and output blocks at block row `t`, the five parameter rows at
    block (0, 0). -/
theorem idx_facts2 : ∀ t : Fin cfg2.N, win2_0.index t (0 : Fin 2) = t.val ∧ win2_0.index t (1 : Fin 2) = 0
    ∧ win2_6.index t (0 : Fin 2) = t.val ∧ win2_6.index t (1 : Fin 2) = 0
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, _)

set_option maxHeartbeats 1000000 in
/-- What point `t` writes back is block `t` of the entrywise function of the whole input array and the five rows. The
    region's operands arrive in the order bias, γ, β, mean, variance. -/
theorem flushed2_eq (c : Dev nD) (t : Fin cfg2.N) :
    (dat2 V c).flushed 6 t = ((cfg2.win 6).blk t).view.read (Elt Ideal)
      (Spec.bnLeaky (V c main_v44) (V c main_v55) (V c main_v56) (V c main_v57) (V c main_v58) (V c main_v59)) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S1x128) hz2]
  rw [Body.k2_pay1_eq]
  obtain ⟨e0, e1, e2, e3, ⟨a1, b1⟩, ⟨a2, b2⟩, ⟨a3, b3⟩, ⟨a4, b4⟩, ⟨a5, b5⟩⟩ := idx_facts2 t
  funext j
  have hj0 : (j 0).val < 5000 := (j 0).isLt
  have hj1 : (j 1).val < 128 := (j 1).isLt
  have hx : ((cfg2.win 0).blk t).view.emb j = ((cfg2.win 6).blk t).view.emb j := by
    funext a; apply Fin.ext
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 128 + 1 * (j 1).val = win2_6.index t (1 : Fin 2) * 128 + 1 * (j 1).val; omega
  have hr1 : ((cfg2.win 1).blk t).view.emb (ix2 (n0 := 1) (n1 := 128) 0 (j 1)) = ix2 (n0 := 1) (n1 := 128) 0 ((((cfg2.win 6).blk t).view.emb j) 1) := by
    funext a; apply Fin.ext
    match a with
    | ⟨0, _⟩ => show win2_1.index t (0 : Fin 2) * 1 + 1 * 0 = 0; omega
    | ⟨1, _⟩ => show win2_1.index t (1 : Fin 2) * 128 + 1 * (j 1).val = win2_6.index t (1 : Fin 2) * 128 + 1 * (j 1).val; omega
  have hr2 : ((cfg2.win 2).blk t).view.emb (ix2 (n0 := 1) (n1 := 128) 0 (j 1)) = ix2 (n0 := 1) (n1 := 128) 0 ((((cfg2.win 6).blk t).view.emb j) 1) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_6.index t (1 : Fin 2) * 128 + 1 * (j 1).val; omega
  have hr3 : ((cfg2.win 3).blk t).view.emb (ix2 (n0 := 1) (n1 := 128) 0 (j 1)) = ix2 (n0 := 1) (n1 := 128) 0 ((((cfg2.win 6).blk t).view.emb j) 1) := by
    funext a; apply Fin.ext
    match a with
    | ⟨0, _⟩ => show win2_3.index t (0 : Fin 2) * 1 + 1 * 0 = 0; omega
    | ⟨1, _⟩ => show win2_3.index t (1 : Fin 2) * 128 + 1 * (j 1).val = win2_6.index t (1 : Fin 2) * 128 + 1 * (j 1).val; omega
  have hr4 : ((cfg2.win 4).blk t).view.emb (ix2 (n0 := 1) (n1 := 128) 0 (j 1)) = ix2 (n0 := 1) (n1 := 128) 0 ((((cfg2.win 6).blk t).view.emb j) 1) := by
    funext a; apply Fin.ext
    match a with
    | ⟨0, _⟩ => show win2_4.index t (0 : Fin 2) * 1 + 1 * 0 = 0; omega
    | ⟨1, _⟩ => show win2_4.index t (1 : Fin 2) * 128 + 1 * (j 1).val = win2_6.index t (1 : Fin 2) * 128 + 1 * (j 1).val; omega
  have hr5 : ((cfg2.win 5).blk t).view.emb (ix2 (n0 := 1) (n1 := 128) 0 (j 1)) = ix2 (n0 := 1) (n1 := 128) 0 ((((cfg2.win 6).blk t).view.emb j) 1) := by
    funext a; apply Fin.ext
    match a with
    | ⟨0, _⟩ => show win2_5.index t (0 : Fin 2) * 1 + 1 * 0 = 0; omega
    | ⟨1, _⟩ => show win2_5.index t (1 : Fin 2) * 128 + 1 * (j 1).val = win2_6.index t (1 : Fin 2) * 128 + 1 * (j 1).val; omega
  show Spec.bnLeaky (fun y => V c main_v44 (((cfg2.win 0).blk t).view.emb y)) (fun y => V c main_v55 (((cfg2.win 1).blk t).view.emb y))
        (fun y => V c main_v56 (((cfg2.win 2).blk t).view.emb y)) (fun y => V c main_v57 (((cfg2.win 3).blk t).view.emb y))
        (fun y => V c main_v58 (((cfg2.win 4).blk t).view.emb y)) (fun y => V c main_v59 (((cfg2.win 5).blk t).view.emb y)) j
     = Spec.bnLeaky (V c main_v44) (V c main_v55) (V c main_v56) (V c main_v57) (V c main_v58) (V c main_v59) (((cfg2.win 6).blk t).view.emb j)
  refine Body.bn_entry (a := 5000) (a' := 50000)
    (fun y => V c main_v44 (((cfg2.win 0).blk t).view.emb y)) (fun y => V c main_v55 (((cfg2.win 1).blk t).view.emb y))
    (fun y => V c main_v56 (((cfg2.win 2).blk t).view.emb y)) (fun y => V c main_v57 (((cfg2.win 3).blk t).view.emb y))
    (fun y => V c main_v58 (((cfg2.win 4).blk t).view.emb y)) (fun y => V c main_v59 (((cfg2.win 5).blk t).view.emb y))
    (V c main_v44) (V c main_v55) (V c main_v56) (V c main_v57) (V c main_v58) (V c main_v59) j (((cfg2.win 6).blk t).view.emb j) ?_ ?_ ?_ ?_ ?_ ?_
  · exact congrArg (V c main_v44) hx
  · exact congrArg (V c main_v55) hr1
  · exact congrArg (V c main_v56) hr2
  · exact congrArg (V c main_v57) hr3
  · exact congrArg (V c main_v58) hr4
  · exact congrArg (V c main_v59) hr5

/-- An index of the output array is in point `t`'s block iff each coordinate is in the block's range on its axis. -/
theorem mem_blk2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v60).slice (win2_6.rect t)).set ↔ _
  rw [View.set_slice_whole, Rect.mem_set_unit]
  exact Iff.rfl

/-- The ten blocks tile the array: row `r` is in the block of point `r / 5000`. -/
theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e0, e1, e2, e3, -⟩ := idx_facts2 t
  have e2' : win2_6.index t (0 : Fin 2) = (i 0).val / 5000 := e2
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The output array after the region: the entrywise function of the input array and the five rows as the region finds them. -/
theorem final2 (c : Dev nD) : (dat2 V c).arrAt 6 cfg2.N
    = Spec.bnLeaky (V c main_v44) (V c main_v55) (V c main_v56) (V c main_v57) (V c main_v58) (V c main_v59) :=
  (dat2 V c).arrAt_eq_of_cover 6 _ (fun t _ => flushed2_eq V c t) (cover2)

end Cert.KernelIdeal.Region

end
-- ==== Proof.Region3.lean ====
/-
  Region 3 (a per-layer transform): the grid's ten points each take 5000 consecutive node rows, multiply them by the
  whole 128 × 128 weight matrix and write the 5000 product rows back. Point `t`'s block of the input and of the output
  both start at row 5000·t, and the weight matrix is one block, so what point `t` writes back is rows
  5000·t … 5000·t + 4999 of the product of the WHOLE input with the weight matrix; the ten blocks tile the 50000 rows,
  so the output array ends as that product.
-/
import proofs.«179248_j25366076850805_1_alg».proof.Proof.Gen.KernelIdeal.Frame
import proofs.«179248_j25366076850805_1_alg».proof.Proof.BodyMatmul
import Idealize.ShloMosaic.Lib.Pipeline.Value

noncomputable section

open scoped BigOperators

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)

-- the TensorCore's buffer contents when the region is entered, at the ideal instance
variable (V : (c : Dev nD) → (b : Ref sig .tc) → Buf (Elt Ideal) ((c : Thread nD τ).loc b))

/-- A buffer's contents as an `a × b` matrix of extended reals. -/
abbrev asMat3 (a b : ℕ) (x : (⟨2, ![a, b]⟩ : Shape).Idx → EReal) : (⟨2, ![a, b]⟩ : Shape).Idx → EReal := x

theorem hz3 : (![0, 0] : Fin 2 → Nat) = fun _ => 0 := funext fun a => by fin_cases a <;> rfl

/-- The printed index maps over the ten points: input and output blocks sit at block row `t`, block column 0; the
    weight matrix at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the whole input array with the weight matrix. -/
theorem flushed3_eq (c : Dev nD) (t : Fin cfg3.N) :
    (dat3 V c).flushed 2 t = ((cfg3.win 2).blk t).view.read (Elt Ideal) (Spec.mm (V c main_v60) (V c main_v62)) := by
  show (cfg3.win 2).cut (grid3.coords t) ((dat3 V c).after 2 t) = _
  rw [after3_2]
  unfold out3_2
  rw [View.canon_unit_zero hz3]
  simp only [View.ld_unit_zero (S := S5000x128) hz3, View.ld_unit_zero (S := S128x128) hz3]
  rw [Body.k3_pay1_eq]
  obtain ⟨e0, e1, e2, e3, e4, e5⟩ := idx_facts3 t
  funext j
  show (∑ k : Fin 128, asMat3 50000 128 (V c main_v60) (((cfg3.win 0).blk t).view.emb (ix2 (j 0) k)) * asMat3 128 128 (V c main_v62) (((cfg3.win 1).blk t).view.emb (ix2 k (j 1))))
     = ∑ k : Fin 128, asMat3 50000 128 (V c main_v60) (ix2 ((((cfg3.win 2).blk t).view.emb j) 0) k) * asMat3 128 128 (V c main_v62) (ix2 k ((((cfg3.win 2).blk t).view.emb j) 1))
  refine Finset.sum_congr rfl fun k _ => ?_
  have hj0 : (j 0).val < 5000 := (j 0).isLt
  have hj1 : (j 1).val < 128 := (j 1).isLt
  have h0 : ((cfg3.win 0).blk t).view.emb (ix2 (j 0) k) = ix2 ((((cfg3.win 2).blk t).view.emb j) 0) k := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  have h1 : ((cfg3.win 1).blk t).view.emb (ix2 k (j 1)) = ix2 k ((((cfg3.win 2).blk t).view.emb j) 1) := by
    funext a; apply Fin.ext
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega
  rw [h0, h1]
  try rfl

/-- An index of the output array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- The ten blocks tile the array: row `r` is in the block of point `r / 5000`. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e0, e1, e2, e3, e4, e5⟩ := idx_facts3 t
  have e4' : win3_2.index t (0 : Fin 2) = (i 0).val / 5000 := e4
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: the product of the input array, as the region finds it, with the weight matrix. -/
theorem final3 (c : Dev nD) : (dat3 V c).arrAt 2 cfg3.N = Spec.mm (V c main_v60) (V c main_v62) :=
  (dat3 V c).arrAt_eq_of_cover 2 _ (fun t _ => flushed3_eq V c t) (cover3)

end Cert.KernelIdeal.Region

end
-- ==== Proof.Chain2.lean ====
/-
  Boundaries 5 to 8: the first layer's neighbourhood sums and normalisation, and the second layer's transform, read against
  the reference's stages.
-/
import proofs.«179248_j25366076850805_1_alg».proof.Proof.Chain1
import proofs.«179248_j25366076850805_1_alg».proof.Proof.Region2
import proofs.«179248_j25366076850805_1_alg».proof.Proof.Region3

noncomputable section

namespace Cert.KernelIdeal.Chain

open Cert.KernelIdeal Cert.KernelIdeal.Gen Cert.ReferenceIdeal.ReadP Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Boundary 5: the neighbourhood sums and the layer's parameter rows -/

/-- The weighted neighbourhood sums: the same host operations as the reference's, applied to equal transformed features,
    edge endpoints and edge weights. -/
theorem l5_v44 : W5 m ρ c (Proc.devRef .tc main_v44) = val_main_v46 (F := Ideal) (A0 m c) (A1 m c) (A3 m c) (A4 m c) (A5 m c) := by
  show StableHlo.after hostOps2 (W4 m ρ c) (Proc.devRef .tc main_v44) = _
  after_results_simp
  rw [l4_v31 m ρ c, Carry.edge4 m ρ c main_v3 (by decide), Carry.edge4 m ρ c main_v6 (by decide),
    Carry.edge4 m ρ c main_v26 (by decide), l1_v3 m ρ c, l1_v6 m ρ c, l1_v26 m ρ c]
  rfl

/-- A parameter row: the layer's slice of the argument, reshaped to one row, is the reference's row. -/
theorem l5_v55 : W5 m ρ c (Proc.devRef .tc main_v55) = val_main_v49 (F := Ideal) (A6 m c) := by
  show StableHlo.after hostOps2 (W4 m ρ c) (Proc.devRef .tc main_v55) = _
  after_results_simp
  rw [Carry.arg4 m ρ c main_arg6 (by decide)]
  exact Cert.LibRowOfVector.shapeCast_eq_broadcastInDim (by decide) _ _ _

/-- A parameter row: the layer's slice of the argument, reshaped to one row, is the reference's row. -/
theorem l5_v56 : W5 m ρ c (Proc.devRef .tc main_v56) = val_main_v67 (F := Ideal) (A7 m c) := by
  show StableHlo.after hostOps2 (W4 m ρ c) (Proc.devRef .tc main_v56) = _
  after_results_simp
  rw [Carry.arg4 m ρ c main_arg7 (by decide)]
  exact Cert.LibRowOfVector.shapeCast_eq_broadcastInDim (by decide) _ _ _

/-- A parameter row: the layer's slice of the argument, reshaped to one row, is the reference's row. -/
theorem l5_v57 : W5 m ρ c (Proc.devRef .tc main_v57) = val_main_v72 (F := Ideal) (A8 m c) := by
  show StableHlo.after hostOps2 (W4 m ρ c) (Proc.devRef .tc main_v57) = _
  after_results_simp
  rw [Carry.arg4 m ρ c main_arg8 (by decide)]
  exact Cert.LibRowOfVector.shapeCast_eq_broadcastInDim (by decide) _ _ _

/-- A parameter row: the layer's slice of the argument, reshaped to one row, is the reference's row. -/
theorem l5_v58 : W5 m ρ c (Proc.devRef .tc main_v58) = val_main_v54 (F := Ideal) (A9 m c) := by
  show StableHlo.after hostOps2 (W4 m ρ c) (Proc.devRef .tc main_v58) = _
  after_results_simp
  rw [Carry.arg4 m ρ c main_arg9 (by decide)]
  exact Cert.LibRowOfVector.shapeCast_eq_broadcastInDim (by decide) _ _ _

/-- The variance row: the reference lays the variance down as a row only after taking the reciprocal square root, so the
    row itself is stated over the reference's variance vector. -/
theorem l5_v59 : W5 m ρ c (Proc.devRef .tc main_v59)
    = broadcastInDim Cert.ReferenceIdeal.S1x128 ![1] Cert.ReferenceIdeal.Facts₀.bcast_S128_S1x128_1 (val_main_v58 (F := Ideal) (A10 m c)) := by
  show StableHlo.after hostOps2 (W4 m ρ c) (Proc.devRef .tc main_v59) = _
  after_results_simp
  rw [Carry.arg4 m ρ c main_arg10 (by decide)]
  exact Cert.LibRowOfVector.shapeCast_eq_broadcastInDim (by decide) _ _ _

/-! ## Boundary 6: bias, normalisation, rectifier -/

theorem l6_v60 : W6 m ρ c (Proc.devRef .tc main_v60) = val_main_v79 (F := Ideal) (A0 m c) (A1 m c) (A3 m c) (A4 m c) (A5 m c) (A6 m c) (A7 m c) (A8 m c) (A9 m c) (A10 m c) := by
  refine (W6_arr m ρ c 6).trans ((Region.final2 (V5 m ρ) c).trans ?_)
  show Spec.bnLeaky (W5 m ρ c (Proc.devRef .tc main_v44)) (W5 m ρ c (Proc.devRef .tc main_v55)) (W5 m ρ c (Proc.devRef .tc main_v56))
    (W5 m ρ c (Proc.devRef .tc main_v57)) (W5 m ρ c (Proc.devRef .tc main_v58)) (W5 m ρ c (Proc.devRef .tc main_v59)) = _
  rw [l5_v44 m ρ c, l5_v55 m ρ c, l5_v56 m ρ c, l5_v57 m ρ c,
    l5_v58 m ρ c, l5_v59 m ρ c]
  exact ((Cert.ReferenceIdeal.Bridge.v79_tree _ _ _ _ _ _ _ _ _ _).trans (Cert.ReferenceIdeal.Bridge.bnTree_eq _ _ _ _ _ _)).symm

/-! ## Boundary 7: the next layer's weight matrix -/

theorem l7_v62 : W7 m ρ c (Proc.devRef .tc main_v62) = val_main_v81 (F := Ideal) (A5 m c) := by
  show StableHlo.after hostOps3 (W6 m ρ c) (Proc.devRef .tc main_v62) = _
  after_results
  rw [Carry.arg6 m ρ c main_arg5 (by decide)]
  rfl
theorem l7_v60 : W7 m ρ c (Proc.devRef .tc main_v60) = W6 m ρ c (Proc.devRef .tc main_v60) := by
  host_keep hostOps3

/-! ## Boundary 8: the layer's transform -/

theorem l8_v63 : W8 m ρ c (Proc.devRef .tc main_v63) = val_main_v82 (F := Ideal) (A0 m c) (A1 m c) (A3 m c) (A4 m c) (A5 m c) (A6 m c) (A7 m c) (A8 m c) (A9 m c) (A10 m c) := by
  refine (W8_arr m ρ c 2).trans ((Region.final3 (V7 m ρ) c).trans ?_)
  show Spec.mm (W7 m ρ c (Proc.devRef .tc main_v60)) (W7 m ρ c (Proc.devRef .tc main_v62)) = _
  rw [l7_v60 m ρ c, l6_v60 m ρ c, l7_v62 m ρ c]
  exact (Cert.ReferenceIdeal.Bridge.dotLayer_eq _ _).symm

end Cert.KernelIdeal.Chain

end
-- ==== Proof.Region4.lean ====
/-
  Region 4 (bias, batch normalisation, leaky rectifier): each of the ten points takes 5000 consecutive node rows and
  the five whole parameter rows, and writes back the entrywise result. Input and output blocks both start at row
  5000·t and every parameter row is one block, so point `t` writes back rows 5000·t … 5000·t + 4999 of the entrywise
  function of the WHOLE input array; the ten blocks tile the 50000 rows.
-/
import proofs.«179248_j25366076850805_1_alg».proof.Proof.Gen.KernelIdeal.Frame
import proofs.«179248_j25366076850805_1_alg».proof.Proof.BodyBn
import Idealize.ShloMosaic.Lib.Pipeline.Value

noncomputable section

open scoped BigOperators

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)

-- the TensorCore's buffer contents when the region is entered, at the ideal instance
variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the ten points: input and output blocks at block row `t`, the five parameter rows at
    block (0, 0). -/
theorem idx_facts4 : ∀ t : Fin cfg4.N, win4_0.index t (0 : Fin 2) = t.val ∧ win4_0.index t (1 : Fin 2) = 0
    ∧ win4_6.index t (0 : Fin 2) = t.val ∧ win4_6.index t (1 : Fin 2) = 0
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0) :=
  (by decide +kernel : ∀ t : Fin grid4.N, _)

set_option maxHeartbeats 1000000 in
/-- What point `t` writes back is block `t` of the entrywise function of the whole input array and the five rows. The
    region's operands arrive in the order bias, γ, β, mean, variance. -/
theorem flushed4_eq (c : Dev nD) (t : Fin cfg4.N) :
    (dat4 V c).flushed 6 t = ((cfg4.win 6).blk t).view.read (Elt Ideal)
      (Spec.bnLeaky (V c main_v76) (V c main_v87) (V c main_v88) (V c main_v89) (V c main_v90) (V c main_v91)) := by
  show (cfg4.win 6).cut (grid4.coords t) ((dat4 V c).after 6 t) = _
  rw [after4_6]
  unfold out4_6
  rw [View.canon_unit_zero hz4]
  simp only [View.ld_unit_zero (S := S5000x128) hz4, View.ld_unit_zero (S := S1x128) hz4]
  rw [Body.k4_pay1_eq]
  obtain ⟨e0, e1, e2, e3, ⟨a1, b1⟩, ⟨a2, b2⟩, ⟨a3, b3⟩, ⟨a4, b4⟩, ⟨a5, b5⟩⟩ := idx_facts4 t
  funext j
  have hj0 : (j 0).val < 5000 := (j 0).isLt
  have hj1 : (j 1).val < 128 := (j 1).isLt
  have hx : ((cfg4.win 0).blk t).view.emb j = ((cfg4.win 6).blk t).view.emb j := by
    funext a; apply Fin.ext
    match a with
    | ⟨0, _⟩ => show win4_0.index t (0 : Fin 2) * 5000 + 1 * (j 0).val = win4_6.index t (0 : Fin 2) * 5000 + 1 * (j 0).val; omega
    | ⟨1, _⟩ => show win4_0.index t (1 : Fin 2) * 128 + 1 * (j 1).val = win4_6.index t (1 : Fin 2) * 128 + 1 * (j 1).val; omega
  have hr1 : ((cfg4.win 1).blk t).view.emb (ix2 (n0 := 1) (n1 := 128) 0 (j 1)) = ix2 (n0 := 1) (n1 := 128) 0 ((((cfg4.win 6).blk t).view.emb j) 1) := by
    funext a; apply Fin.ext
    match a with
    | ⟨0, _⟩ => show win4_1.index t (0 : Fin 2) * 1 + 1 * 0 = 0; omega
    | ⟨1, _⟩ => show win4_1.index t (1 : Fin 2) * 128 + 1 * (j 1).val = win4_6.index t (1 : Fin 2) * 128 + 1 * (j 1).val; omega
  have hr2 : ((cfg4.win 2).blk t).view.emb (ix2 (n0 := 1) (n1 := 128) 0 (j 1)) = ix2 (n0 := 1) (n1 := 128) 0 ((((cfg4.win 6).blk t).view.emb j) 1) := by
    funext a; apply Fin.ext
    match a with
    | ⟨0, _⟩ => show win4_2.index t (0 : Fin 2) * 1 + 1 * 0 = 0; omega
    | ⟨1, _⟩ => show win4_2.index t (1 : Fin 2) * 128 + 1 * (j 1).val = win4_6.index t (1 : Fin 2) * 128 + 1 * (j 1).val; omega
  have hr3 : ((cfg4.win 3).blk t).view.emb (ix2 (n0 := 1) (n1 := 128) 0 (j 1)) = ix2 (n0 := 1) (n1 := 128) 0 ((((cfg4.win 6).blk t).view.emb j) 1) := by
    funext a; apply Fin.ext
    match a with
    | ⟨0, _⟩ => show win4_3.index t (0 : Fin 2) * 1 + 1 * 0 = 0; omega
    | ⟨1, _⟩ => show win4_3.index t (1 : Fin 2) * 128 + 1 * (j 1).val = win4_6.index t (1 : Fin 2) * 128 + 1 * (j 1).val; omega
  have hr4 : ((cfg4.win 4).blk t).view.emb (ix2 (n0 := 1) (n1 := 128) 0 (j 1)) = ix2 (n0 := 1) (n1 := 128) 0 ((((cfg4.win 6).blk t).view.emb j) 1) := by
    funext a; apply Fin.ext
    match a with
    | ⟨0, _⟩ => show win4_4.index t (0 : Fin 2) * 1 + 1 * 0 = 0; omega
    | ⟨1, _⟩ => show win4_4.index t (1 : Fin 2) * 128 + 1 * (j 1).val = win4_6.index t (1 : Fin 2) * 128 + 1 * (j 1).val; omega
  have hr5 : ((cfg4.win 5).blk t).view.emb (ix2 (n0 := 1) (n1 := 128) 0 (j 1)) = ix2 (n0 := 1) (n1 := 128) 0 ((((cfg4.win 6).blk t).view.emb j) 1) := by
    funext a; apply Fin.ext
    match a with
    | ⟨0, _⟩ => show win4_5.index t (0 : Fin 2) * 1 + 1 * 0 = 0; omega
    | ⟨1, _⟩ => show win4_5.index t (1 : Fin 2) * 128 + 1 * (j 1).val = win4_6.index t (1 : Fin 2) * 128 + 1 * (j 1).val; omega
  show Spec.bnLeaky (fun y => V c main_v76 (((cfg4.win 0).blk t).view.emb y)) (fun y => V c main_v87 (((cfg4.win 1).blk t).view.emb y))
        (fun y => V c main_v88 (((cfg4.win 2).blk t).view.emb y)) (fun y => V c main_v89 (((cfg4.win 3).blk t).view.emb y))
        (fun y => V c main_v90 (((cfg4.win 4).blk t).view.emb y)) (fun y => V c main_v91 (((cfg4.win 5).blk t).view.emb y)) j
     = Spec.bnLeaky (V c main_v76) (V c main_v87) (V c main_v88) (V c main_v89) (V c main_v90) (V c main_v91) (((cfg4.win 6).blk t).view.emb j)
  refine Body.bn_entry (a := 5000) (a' := 50000)
    (fun y => V c main_v76 (((cfg4.win 0).blk t).view.emb y)) (fun y => V c main_v87 (((cfg4.win 1).blk t).view.emb y))
    (fun y => V c main_v88 (((cfg4.win 2).blk t).view.emb y)) (fun y => V c main_v89 (((cfg4.win 3).blk t).view.emb y))
    (fun y => V c main_v90 (((cfg4.win 4).blk t).view.emb y)) (fun y => V c main_v91 (((cfg4.win 5).blk t).view.emb y))
    (V c main_v76) (V c main_v87) (V c main_v88) (V c main_v89) (V c main_v90) (V c main_v91) j (((cfg4.win 6).blk t).view.emb j) ?_ ?_ ?_ ?_ ?_ ?_
  · exact congrArg (V c main_v76) hx
  · exact congrArg (V c main_v87) hr1
  · exact congrArg (V c main_v88) hr2
  · exact congrArg (V c main_v89) hr3
  · exact congrArg (V c main_v90) hr4
  · exact congrArg (V c main_v91) hr5

/-- An index of the output array is in point `t`'s block iff each coordinate is in the block's range on its axis. -/
theorem mem_blk4 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v92).slice (win4_6.rect t)).set ↔ _
  rw [View.set_slice_whole, Rect.mem_set_unit]
  exact Iff.rfl

/-- The ten blocks tile the array: row `r` is in the block of point `r / 5000`. -/
theorem cover4 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨e0, e1, e2, e3, -⟩ := idx_facts4 t
  have e2' : win4_6.index t (0 : Fin 2) = (i 0).val / 5000 := e2
  refine ⟨t, flush4_6 t, ?_⟩
  rw [mem_blk4]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-- The output array after the region: the entrywise function of the input array and the five rows as the region finds them. -/
theorem final4 (c : Dev nD) : (dat4 V c).arrAt 6 cfg4.N
    = Spec.bnLeaky (V c main_v76) (V c main_v87) (V c main_v88) (V c main_v89) (V c main_v90) (V c main_v91) :=
  (dat4 V c).arrAt_eq_of_cover 6 _ (fun t _ => flushed4_eq V c t) (cover4)

end Cert.KernelIdeal.Region

end
-- ==== Proof.Region5.lean ====
/-
  Region 5 (a per-layer transform): the grid's ten points each take 5000 consecutive node rows, multiply them by the
  whole 128 × 128 weight matrix and write the 5000 product rows back. Point `t`'s block of the input and of the output
  both start at row 5000·t, and the weight matrix is one block, so what point `t` writes back is rows
  5000·t … 5000·t + 4999 of the product of the WHOLE input with the weight matrix; the ten blocks tile the 50000 rows,
  so the output array ends as that product.
-/
import proofs.«179248_j25366076850805_1_alg».proof.Proof.Gen.KernelIdeal.Frame
import proofs.«179248_j25366076850805_1_alg».proof.Proof.BodyMatmul
import Idealize.ShloMosaic.Lib.Pipeline.Value

noncomputable section

open scoped BigOperators

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)

-- the TensorCore's buffer contents when the region is entered, at the ideal instance
variable (V : (c : Dev nD) → (b : Ref sig .tc) → Buf (Elt Ideal) ((c : Thread nD τ).loc b))

/-- A buffer's contents as an `a × b` matrix of extended reals. -/
abbrev asMat5 (a b : ℕ) (x : (⟨2, ![a, b]⟩ : Shape).Idx → EReal) : (⟨2, ![a, b]⟩ : Shape).Idx → EReal := x

theorem hz5 : (![0, 0] : Fin 2 → Nat) = fun _ => 0 := funext fun a => by fin_cases a <;> rfl

/-- The printed index maps over the ten points: input and output blocks sit at block row `t`, block column 0; the
    weight matrix at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the product of the whole input array with the weight matrix. -/
theorem flushed5_eq (c : Dev nD) (t : Fin cfg5.N) :
    (dat5 V c).flushed 2 t = ((cfg5.win 2).blk t).view.read (Elt Ideal) (Spec.mm (V c main_v92) (V c main_v94)) := by
  show (cfg5.win 2).cut (grid5.coords t) ((dat5 V c).after 2 t) = _
  rw [after5_2]
  unfold out5_2
  rw [View.canon_unit_zero hz5]
  simp only [View.ld_unit_zero (S := S5000x128) hz5, View.ld_unit_zero (S := S128x128) hz5]
  rw [Body.k5_pay1_eq]
  obtain ⟨e0, e1, e2, e3, e4, e5⟩ := idx_facts5 t
  funext j
  show (∑ k : Fin 128, asMat5 50000 128 (V c main_v92) (((cfg5.win 0).blk t).view.emb (ix2 (j 0) k)) * asMat5 128 128 (V c main_v94) (((cfg5.win 1).blk t).view.emb (ix2 k (j 1))))
     = ∑ k : Fin 128, asMat5 50000 128 (V c main_v92) (ix2 ((((cfg5.win 2).blk t).view.emb j) 0) k) * asMat5 128 128 (V c main_v94) (ix2 k ((((cfg5.win 2).blk t).view.emb j) 1))
  refine Finset.sum_congr rfl fun k _ => ?_
  have hj0 : (j 0).val < 5000 := (j 0).isLt
  have hj1 : (j 1).val < 128 := (j 1).isLt
  have h0 : ((cfg5.win 0).blk t).view.emb (ix2 (j 0) k) = ix2 ((((cfg5.win 2).blk t).view.emb j) 0) k := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * k.val = k.val; omega
  have h1 : ((cfg5.win 1).blk t).view.emb (ix2 k (j 1)) = ix2 k ((((cfg5.win 2).blk t).view.emb j) 1) := by
    funext a; apply Fin.ext
    match a with
    | ⟨0, _⟩ => show win5_1.index t (0 : Fin 2) * 128 + 1 * k.val = k.val; omega
    | ⟨1, _⟩ => show win5_1.index t (1 : Fin 2) * 128 + 1 * (j 1).val = win5_2.index t (1 : Fin 2) * 128 + 1 * (j 1).val; omega
  rw [h0, h1]
  try rfl

/-- An index of the output array is in point `t`'s block iff each coordinate is in the block's range on its axis. -/
theorem mem_blk5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v95).slice (win5_2.rect t)).set ↔ _
  rw [View.set_slice_whole, Rect.mem_set_unit]
  exact Iff.rfl

/-- The ten blocks tile the array: row `r` is in the block of point `r / 5000`. -/
theorem cover5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨e0, e1, e2, e3, e4, e5⟩ := idx_facts5 t
  have e4' : win5_2.index t (0 : Fin 2) = (i 0).val / 5000 := e4
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The output array after the region: the product of the input array, as the region finds it, with the weight matrix. -/
theorem final5 (c : Dev nD) : (dat5 V c).arrAt 2 cfg5.N = Spec.mm (V c main_v92) (V c main_v94) :=
  (dat5 V c).arrAt_eq_of_cover 2 _ (fun t _ => flushed5_eq V c t) (cover5)

end Cert.KernelIdeal.Region

end
-- ==== Proof.Chain3.lean ====
/-
  Boundaries 9 to 12: the second layer's neighbourhood sums and normalisation, and the third layer's transform.
-/
import proofs.«179248_j25366076850805_1_alg».proof.Proof.Chain2
import proofs.«179248_j25366076850805_1_alg».proof.Proof.Region4
import proofs.«179248_j25366076850805_1_alg».proof.Proof.Region5

noncomputable section

namespace Cert.KernelIdeal.Chain

open Cert.KernelIdeal Cert.KernelIdeal.Gen Cert.ReferenceIdeal.ReadP Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Boundary 9: the neighbourhood sums and the layer's parameter rows -/

/-- The weighted neighbourhood sums: the same host operations as the reference's, applied to equal transformed features,
    edge endpoints and edge weights. -/
theorem l9_v76 : W9 m ρ c (Proc.devRef .tc main_v76) = val_main_v95 (F := Ideal) (A0 m c) (A1 m c) (A3 m c) (A4 m c) (A5 m c) (A6 m c) (A7 m c) (A8 m c) (A9 m c) (A10 m c) := by
  show StableHlo.after hostOps4 (W8 m ρ c) (Proc.devRef .tc main_v76) = _
  after_results_simp
  rw [l8_v63 m ρ c, Carry.edge8 m ρ c main_v3 (by decide), Carry.edge8 m ρ c main_v6 (by decide),
    Carry.edge8 m ρ c main_v26 (by decide), l1_v3 m ρ c, l1_v6 m ρ c, l1_v26 m ρ c]
  rfl

/-- A parameter row: the layer's slice of the argument, reshaped to one row, is the reference's row. -/
theorem l9_v87 : W9 m ρ c (Proc.devRef .tc main_v87) = val_main_v98 (F := Ideal) (A6 m c) := by
  show StableHlo.after hostOps4 (W8 m ρ c) (Proc.devRef .tc main_v87) = _
  after_results_simp
  rw [Carry.arg8 m ρ c main_arg6 (by decide)]
  exact Cert.LibRowOfVector.shapeCast_eq_broadcastInDim (by decide) _ _ _

/-- A parameter row: the layer's slice of the argument, reshaped to one row, is the reference's row. -/
theorem l9_v88 : W9 m ρ c (Proc.devRef .tc main_v88) = val_main_v116 (F := Ideal) (A7 m c) := by
  show StableHlo.after hostOps4 (W8 m ρ c) (Proc.devRef .tc main_v88) = _
  after_results_simp
  rw [Carry.arg8 m ρ c main_arg7 (by decide)]
  exact Cert.LibRowOfVector.shapeCast_eq_broadcastInDim (by decide) _ _ _

/-- A parameter row: the layer's slice of the argument, reshaped to one row, is the reference's row. -/
theorem l9_v89 : W9 m ρ c (Proc.devRef .tc main_v89) = val_main_v121 (F := Ideal) (A8 m c) := by
  show StableHlo.after hostOps4 (W8 m ρ c) (Proc.devRef .tc main_v89) = _
  after_results_simp
  rw [Carry.arg8 m ρ c main_arg8 (by decide)]
  exact Cert.LibRowOfVector.shapeCast_eq_broadcastInDim (by decide) _ _ _

/-- A parameter row: the layer's slice of the argument, reshaped to one row, is the reference's row. -/
theorem l9_v90 : W9 m ρ c (Proc.devRef .tc main_v90) = val_main_v103 (F := Ideal) (A9 m c) := by
  show StableHlo.after hostOps4 (W8 m ρ c) (Proc.devRef .tc main_v90) = _
  after_results_simp
  rw [Carry.arg8 m ρ c main_arg9 (by decide)]
  exact Cert.LibRowOfVector.shapeCast_eq_broadcastInDim (by decide) _ _ _

/-- The variance row: the reference lays the variance down as a row only after taking the reciprocal square root, so the
    row itself is stated over the reference's variance vector. -/
theorem l9_v91 : W9 m ρ c (Proc.devRef .tc main_v91)
    = broadcastInDim Cert.ReferenceIdeal.S1x128 ![1] Cert.ReferenceIdeal.Facts₀.bcast_S128_S1x128_1 (val_main_v107 (F := Ideal) (A10 m c)) := by
  show StableHlo.after hostOps4 (W8 m ρ c) (Proc.devRef .tc main_v91) = _
  after_results_simp
  rw [Carry.arg8 m ρ c main_arg10 (by decide)]
  exact Cert.LibRowOfVector.shapeCast_eq_broadcastInDim (by decide) _ _ _

/-! ## Boundary 10: bias, normalisation, rectifier -/

theorem l10_v92 : W10 m ρ c (Proc.devRef .tc main_v92) = val_main_v128 (F := Ideal) (A0 m c) (A1 m c) (A3 m c) (A4 m c) (A5 m c) (A6 m c) (A7 m c) (A8 m c) (A9 m c) (A10 m c) := by
  refine (W10_arr m ρ c 6).trans ((Region.final4 (V9 m ρ) c).trans ?_)
  show Spec.bnLeaky (W9 m ρ c (Proc.devRef .tc main_v76)) (W9 m ρ c (Proc.devRef .tc main_v87)) (W9 m ρ c (Proc.devRef .tc main_v88))
    (W9 m ρ c (Proc.devRef .tc main_v89)) (W9 m ρ c (Proc.devRef .tc main_v90)) (W9 m ρ c (Proc.devRef .tc main_v91)) = _
  rw [l9_v76 m ρ c, l9_v87 m ρ c, l9_v88 m ρ c, l9_v89 m ρ c,
    l9_v90 m ρ c, l9_v91 m ρ c]
  exact ((Cert.ReferenceIdeal.Bridge.v128_tree _ _ _ _ _ _ _ _ _ _).trans (Cert.ReferenceIdeal.Bridge.bnTree_eq _ _ _ _ _ _)).symm

/-! ## Boundary 11: the next layer's weight matrix -/

theorem l11_v94 : W11 m ρ c (Proc.devRef .tc main_v94) = val_main_v130 (F := Ideal) (A5 m c) := by
  show StableHlo.after hostOps5 (W10 m ρ c) (Proc.devRef .tc main_v94) = _
  after_results
  rw [Carry.arg10 m ρ c main_arg5 (by decide)]
  rfl
theorem l11_v92 : W11 m ρ c (Proc.devRef .tc main_v92) = W10 m ρ c (Proc.devRef .tc main_v92) := by
  host_keep hostOps5

/-! ## Boundary 12: the layer's transform -/

theorem l12_v95 : W12 m ρ c (Proc.devRef .tc main_v95) = val_main_v131 (F := Ideal) (A0 m c) (A1 m c) (A3 m c) (A4 m c) (A5 m c) (A6 m c) (A7 m c) (A8 m c) (A9 m c) (A10 m c) := by
  refine (W12_arr m ρ c 2).trans ((Region.final5 (V11 m ρ) c).trans ?_)
  show Spec.mm (W11 m ρ c (Proc.devRef .tc main_v92)) (W11 m ρ c (Proc.devRef .tc main_v94)) = _
  rw [l11_v92 m ρ c, l10_v92 m ρ c, l11_v94 m ρ c]
  exact (Cert.ReferenceIdeal.Bridge.dotLayer_eq _ _).symm

end Cert.KernelIdeal.Chain

end
-- ==== Proof.Region6.lean ====
/-
  Region 6 (bias, batch normalisation, leaky rectifier): each of the ten points takes 5000 consecutive node rows and
  the five whole parameter rows, and writes back the entrywise result. Input and output blocks both start at row
  5000·t and every parameter row is one block, so point `t` writes back rows 5000·t … 5000·t + 4999 of the entrywise
  function of the WHOLE input array; the ten blocks tile the 50000 rows.
-/
import proofs.«179248_j25366076850805_1_alg».proof.Proof.Gen.KernelIdeal.Frame
import proofs.«179248_j25366076850805_1_alg».proof.Proof.BodyBn
import Idealize.ShloMosaic.Lib.Pipeline.Value

noncomputable section

open scoped BigOperators

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)

-- the TensorCore's buffer contents when the region is entered, at the ideal instance
variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the ten points: input and output blocks at block row `t`, the five parameter rows at
    block (0, 0). -/
theorem idx_facts6 : ∀ t : Fin cfg6.N, win6_0.index t (0 : Fin 2) = t.val ∧ win6_0.index t (1 : Fin 2) = 0
    ∧ win6_6.index t (0 : Fin 2) = t.val ∧ win6_6.index t (1 : Fin 2) = 0
    ∧ (win6_1.index t (0 : Fin 2) = 0 ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0) :=
  (by decide +kernel : ∀ t : Fin grid6.N, _)

set_option maxHeartbeats 1000000 in
/-- What point `t` writes back is block `t` of the entrywise function of the whole input array and the five rows. The
    region's operands arrive in the order bias, γ, β, mean, variance. -/
theorem flushed6_eq (c : Dev nD) (t : Fin cfg6.N) :
    (dat6 V c).flushed 6 t = ((cfg6.win 6).blk t).view.read (Elt Ideal)
      (Spec.bnLeaky (V c main_v108) (V c main_v119) (V c main_v120) (V c main_v121) (V c main_v122) (V c main_v123)) := by
  show (cfg6.win 6).cut (grid6.coords t) ((dat6 V c).after 6 t) = _
  rw [after6_6]
  unfold out6_6
  rw [View.canon_unit_zero hz6]
  simp only [View.ld_unit_zero (S := S5000x128) hz6, View.ld_unit_zero (S := S1x128) hz6]
  rw [Body.k6_pay1_eq]
  obtain ⟨e0, e1, e2, e3, ⟨a1, b1⟩, ⟨a2, b2⟩, ⟨a3, b3⟩, ⟨a4, b4⟩, ⟨a5, b5⟩⟩ := idx_facts6 t
  funext j
  have hj0 : (j 0).val < 5000 := (j 0).isLt
  have hj1 : (j 1).val < 128 := (j 1).isLt
  have hx : ((cfg6.win 0).blk t).view.emb j = ((cfg6.win 6).blk t).view.emb j := by
    funext a; apply Fin.ext
    match a with
    | ⟨0, _⟩ => show win6_0.index t (0 : Fin 2) * 5000 + 1 * (j 0).val = win6_6.index t (0 : Fin 2) * 5000 + 1 * (j 0).val; omega
    | ⟨1, _⟩ => show win6_0.index t (1 : Fin 2) * 128 + 1 * (j 1).val = win6_6.index t (1 : Fin 2) * 128 + 1 * (j 1).val; omega
  have hr1 : ((cfg6.win 1).blk t).view.emb (ix2 (n0 := 1) (n1 := 128) 0 (j 1)) = ix2 (n0 := 1) (n1 := 128) 0 ((((cfg6.win 6).blk t).view.emb j) 1) := by
    funext a; apply Fin.ext
    match a with
    | ⟨0, _⟩ => show win6_1.index t (0 : Fin 2) * 1 + 1 * 0 = 0; omega
    | ⟨1, _⟩ => show win6_1.index t (1 : Fin 2) * 128 + 1 * (j 1).val = win6_6.index t (1 : Fin 2) * 128 + 1 * (j 1).val; omega
  have hr2 : ((cfg6.win 2).blk t).view.emb (ix2 (n0 := 1) (n1 := 128) 0 (j 1)) = ix2 (n0 := 1) (n1 := 128) 0 ((((cfg6.win 6).blk t).view.emb j) 1) := by
    funext a; apply Fin.ext
    match a with
    | ⟨0, _⟩ => show win6_2.index t (0 : Fin 2) * 1 + 1 * 0 = 0; omega
    | ⟨1, _⟩ => show win6_2.index t (1 : Fin 2) * 128 + 1 * (j 1).val = win6_6.index t (1 : Fin 2) * 128 + 1 * (j 1).val; omega
  have hr3 : ((cfg6.win 3).blk t).view.emb (ix2 (n0 := 1) (n1 := 128) 0 (j 1)) = ix2 (n0 := 1) (n1 := 128) 0 ((((cfg6.win 6).blk t).view.emb j) 1) := by
    funext a; apply Fin.ext
    match a with
    | ⟨0, _⟩ => show win6_3.index t (0 : Fin 2) * 1 + 1 * 0 = 0; omega
    | ⟨1, _⟩ => show win6_3.index t (1 : Fin 2) * 128 + 1 * (j 1).val = win6_6.index t (1 : Fin 2) * 128 + 1 * (j 1).val; omega
  have hr4 : ((cfg6.win 4).blk t).view.emb (ix2 (n0 := 1) (n1 := 128) 0 (j 1)) = ix2 (n0 := 1) (n1 := 128) 0 ((((cfg6.win 6).blk t).view.emb j) 1) := by
    funext a; apply Fin.ext
    match a with
    | ⟨0, _⟩ => show win6_4.index t (0 : Fin 2) * 1 + 1 * 0 = 0; omega
    | ⟨1, _⟩ => show win6_4.index t (1 : Fin 2) * 128 + 1 * (j 1).val = win6_6.index t (1 : Fin 2) * 128 + 1 * (j 1).val; omega
  have hr5 : ((cfg6.win 5).blk t).view.emb (ix2 (n0 := 1) (n1 := 128) 0 (j 1)) = ix2 (n0 := 1) (n1 := 128) 0 ((((cfg6.win 6).blk t).view.emb j) 1) := by
    funext a; apply Fin.ext
    match a with
    | ⟨0, _⟩ => show win6_5.index t (0 : Fin 2) * 1 + 1 * 0 = 0; omega
    | ⟨1, _⟩ => show win6_5.index t (1 : Fin 2) * 128 + 1 * (j 1).val = win6_6.index t (1 : Fin 2) * 128 + 1 * (j 1).val; omega
  show Spec.bnLeaky (fun y => V c main_v108 (((cfg6.win 0).blk t).view.emb y)) (fun y => V c main_v119 (((cfg6.win 1).blk t).view.emb y))
        (fun y => V c main_v120 (((cfg6.win 2).blk t).view.emb y)) (fun y => V c main_v121 (((cfg6.win 3).blk t).view.emb y))
        (fun y => V c main_v122 (((cfg6.win 4).blk t).view.emb y)) (fun y => V c main_v123 (((cfg6.win 5).blk t).view.emb y)) j
     = Spec.bnLeaky (V c main_v108) (V c main_v119) (V c main_v120) (V c main_v121) (V c main_v122) (V c main_v123) (((cfg6.win 6).blk t).view.emb j)
  refine Body.bn_entry (a := 5000) (a' := 50000)
    (fun y => V c main_v108 (((cfg6.win 0).blk t).view.emb y)) (fun y => V c main_v119 (((cfg6.win 1).blk t).view.emb y))
    (fun y => V c main_v120 (((cfg6.win 2).blk t).view.emb y)) (fun y => V c main_v121 (((cfg6.win 3).blk t).view.emb y))
    (fun y => V c main_v122 (((cfg6.win 4).blk t).view.emb y)) (fun y => V c main_v123 (((cfg6.win 5).blk t).view.emb y))
    (V c main_v108) (V c main_v119) (V c main_v120) (V c main_v121) (V c main_v122) (V c main_v123) j (((cfg6.win 6).blk t).view.emb j) ?_ ?_ ?_ ?_ ?_ ?_
  · exact congrArg (V c main_v108) hx
  · exact congrArg (V c main_v119) hr1
  · exact congrArg (V c main_v120) hr2
  · exact congrArg (V c main_v121) hr3
  · exact congrArg (V c main_v122) hr4
  · exact congrArg (V c main_v123) hr5

/-- An index of the output array is in point `t`'s block iff each coordinate is in the block's range on its axis. -/
theorem mem_blk6 (t : Fin cfg6.N) (i : S50000x128.Idx) :
    i ∈ ((cfg6.win 6).blk t).view.set ↔ ∀ a : Fin 2, win6_6.index t a * S5000x128.size a ≤ (i a).val ∧ (i a).val < win6_6.index t a * S5000x128.size a + S5000x128.size a := by
  show i ∈ ((View.whole main_v124).slice (win6_6.rect t)).set ↔ _
  rw [View.set_slice_whole, Rect.mem_set_unit]
  exact Iff.rfl

/-- The ten blocks tile the array: row `r` is in the block of point `r / 5000`. -/
theorem cover6 (i : S50000x128.Idx) : ∃ t : Fin cfg6.N, (cfg6.win 6).flush t = true ∧ i ∈ ((cfg6.win 6).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  obtain ⟨e0, e1, e2, e3, -⟩ := idx_facts6 t
  have e2' : win6_6.index t (0 : Fin 2) = (i 0).val / 5000 := e2
  refine ⟨t, flush6_6 t, ?_⟩
  rw [mem_blk6]
  intro a
  match a with
  | ⟨0, _⟩ => show win6_6.index t (0 : Fin 2) * 5000 ≤ (i 0).val ∧ (i 0).val < win6_6.index t (0 : Fin 2) * 5000 + 5000; omega
  | ⟨1, _⟩ => show win6_6.index t (1 : Fin 2) * 128 ≤ (i 1).val ∧ (i 1).val < win6_6.index t (1 : Fin 2) * 128 + 128; omega

/-- The output array after the region: the entrywise function of the input array and the five rows as the region finds them. -/
theorem final6 (c : Dev nD) : (dat6 V c).arrAt 6 cfg6.N
    = Spec.bnLeaky (V c main_v108) (V c main_v119) (V c main_v120) (V c main_v121) (V c main_v122) (V c main_v123) :=
  (dat6 V c).arrAt_eq_of_cover 6 _ (fun t _ => flushed6_eq V c t) (cover6)

end Cert.KernelIdeal.Region

end
-- ==== Proof.BodyMlp.lean ====
/-
  The pooled perceptron's one block: the 64 pooled rows times the first weight matrix plus its bias row, through the
  leaky rectifier, times the second weight matrix plus its bias row.
-/
import proofs.«179248_j25366076850805_1_alg».proof.Proof.Gen.KernelIdeal.Skeleton
import proofs.«179248_j25366076850805_1_alg».proof.Proof.LibMatmulAt
import proofs.«179248_j25366076850805_1_alg».proof.Proof.Spec
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx

/-- Where the product's two operand indices sit, for these dimension numbers: the left one reads the result's row and
    the contraction position, the right one the contraction position and the result's column. -/
theorem prodH_l0 (i : S64x64.Idx) (q : dot_S64x128_S128x64_S64x64_1_0_0_1_n_n.contr.Idx) : (dot_S64x128_S128x64_S64x64_1_0_0_1_n_n.lhsIdx i q 0).val = (i 0).val := by
  unfold DotDims.lhsIdx
  rw [dif_neg (show ¬(0 : Fin S64x128.rank) ∈ dot_S64x128_S128x64_S64x64_1_0_0_1_n_n.lhsBatch by decide), dif_pos (show (0 : Fin S64x128.rank) ∈ dot_S64x128_S128x64_S64x64_1_0_0_1_n_n.lhsNonContracting by decide)]
  rfl
theorem prodH_l1 (i : S64x64.Idx) (q : dot_S64x128_S128x64_S64x64_1_0_0_1_n_n.contr.Idx) : (dot_S64x128_S128x64_S64x64_1_0_0_1_n_n.lhsIdx i q 1).val = (q ⟨0, by decide⟩).val :=
  dot_S64x128_S128x64_S64x64_1_0_0_1_n_n.lhsIdx_val_of_single rfl i q
theorem prodH_r0 (i : S64x64.Idx) (q : dot_S64x128_S128x64_S64x64_1_0_0_1_n_n.contr.Idx) : (dot_S64x128_S128x64_S64x64_1_0_0_1_n_n.rhsIdx i q 0).val = (q ⟨0, by decide⟩).val :=
  dot_S64x128_S128x64_S64x64_1_0_0_1_n_n.rhsIdx_val_of_single rfl i q
theorem prodH_r1 (i : S64x64.Idx) (q : dot_S64x128_S128x64_S64x64_1_0_0_1_n_n.contr.Idx) : (dot_S64x128_S128x64_S64x64_1_0_0_1_n_n.rhsIdx i q 1).val = (i 1).val := by
  unfold DotDims.rhsIdx
  rw [dif_neg (show ¬(1 : Fin S128x64.rank) ∈ dot_S64x128_S128x64_S64x64_1_0_0_1_n_n.rhsBatch by decide), dif_pos (show (1 : Fin S128x64.rank) ∈ dot_S64x128_S128x64_S64x64_1_0_0_1_n_n.rhsNonContracting by decide)]
  rfl

/-- The product into the zero accumulator, read at `(p, q)`: the sum over `k` of left `(p, k)` times right `(k, q)`. -/
theorem prodH_at {φ₁ φ₂ : FTy} (l : FVec Ideal S64x128 φ₁) (r : FVec Ideal S128x64 φ₂) (p : Fin 64) (q : Fin 64) :
    matmul dot_S64x128_S128x64_S64x64_1_0_0_1_n_n none l r (constant S64x64 .f32 0x00000000#32) (ix2 p q) = ∑ k : Fin 128, l (ix2 p k) * r (ix2 k q) :=
  MatmulAt.matmul_zero_ix2 dot_S64x128_S128x64_S64x64_1_0_0_1_n_n rfl rfl prodH_l0 prodH_l1 prodH_r0 prodH_r1 none l r p q
/-- Where the product's two operand indices sit, for these dimension numbers: the left one reads the result's row and
    the contraction position, the right one the contraction position and the result's column. -/
theorem prodO_l0 (i : S64x8.Idx) (q : dot_S64x64_S64x8_S64x8_1_0_0_1_n_n.contr.Idx) : (dot_S64x64_S64x8_S64x8_1_0_0_1_n_n.lhsIdx i q 0).val = (i 0).val := by
  unfold DotDims.lhsIdx
  rw [dif_neg (show ¬(0 : Fin S64x64.rank) ∈ dot_S64x64_S64x8_S64x8_1_0_0_1_n_n.lhsBatch by decide), dif_pos (show (0 : Fin S64x64.rank) ∈ dot_S64x64_S64x8_S64x8_1_0_0_1_n_n.lhsNonContracting by decide)]
  rfl
theorem prodO_l1 (i : S64x8.Idx) (q : dot_S64x64_S64x8_S64x8_1_0_0_1_n_n.contr.Idx) : (dot_S64x64_S64x8_S64x8_1_0_0_1_n_n.lhsIdx i q 1).val = (q ⟨0, by decide⟩).val :=
  dot_S64x64_S64x8_S64x8_1_0_0_1_n_n.lhsIdx_val_of_single rfl i q
theorem prodO_r0 (i : S64x8.Idx) (q : dot_S64x64_S64x8_S64x8_1_0_0_1_n_n.contr.Idx) : (dot_S64x64_S64x8_S64x8_1_0_0_1_n_n.rhsIdx i q 0).val = (q ⟨0, by decide⟩).val :=
  dot_S64x64_S64x8_S64x8_1_0_0_1_n_n.rhsIdx_val_of_single rfl i q
theorem prodO_r1 (i : S64x8.Idx) (q : dot_S64x64_S64x8_S64x8_1_0_0_1_n_n.contr.Idx) : (dot_S64x64_S64x8_S64x8_1_0_0_1_n_n.rhsIdx i q 1).val = (i 1).val := by
  unfold DotDims.rhsIdx
  rw [dif_neg (show ¬(1 : Fin S64x8.rank) ∈ dot_S64x64_S64x8_S64x8_1_0_0_1_n_n.rhsBatch by decide), dif_pos (show (1 : Fin S64x8.rank) ∈ dot_S64x64_S64x8_S64x8_1_0_0_1_n_n.rhsNonContracting by decide)]
  rfl

/-- The product into the zero accumulator, read at `(p, q)`: the sum over `k` of left `(p, k)` times right `(k, q)`. -/
theorem prodO_at {φ₁ φ₂ : FTy} (l : FVec Ideal S64x64 φ₁) (r : FVec Ideal S64x8 φ₂) (p : Fin 64) (q : Fin 8) :
    matmul dot_S64x64_S64x8_S64x8_1_0_0_1_n_n none l r (constant S64x8 .f32 0x00000000#32) (ix2 p q) = ∑ k : Fin 64, l (ix2 p k) * r (ix2 k q) :=
  MatmulAt.matmul_zero_ix2 dot_S64x64_S64x8_S64x8_1_0_0_1_n_n rfl rfl prodO_l0 prodO_l1 prodO_r0 prodO_r1 none l r p q

/-- The perceptron's block, entry by entry. -/
theorem k7_pay1_eq (g : Vec Ideal S64x128 .f32) (w₁ : Vec Ideal S128x64 .f32) (b₁ : Vec Ideal S1x64 .f32)
    (w₂ : Vec Ideal S64x8 .f32) (b₂ : Vec Ideal S1x8 .f32) :
    k7_pay1 (F := Ideal) g w₁ b₁ w₂ b₂ = Spec.mlp g w₁ b₁ w₂ b₂ := by
  funext i
  obtain ⟨p, q, rfl⟩ : ∃ (p : Fin 64) (q : Fin 8), i = ix2 p q := ⟨i 0, i 1, eq_ix2 i⟩
  unfold k7_pay1
  rw [addf_apply, prodO_at, broadcastTo_1b_ab_apply]
  simp only [shapeCast_self, truncf_apply]
  show _ = (∑ k : Fin 64, Spec.hidden g w₁ b₁ (ix2 p k) * w₂ (ix2 k q)) + b₂ (ix2 0 q)
  refine congrArg (· + b₂ (ix2 0 q)) (Finset.sum_congr rfl fun k _ => ?_)
  refine congrArg (· * w₂ (ix2 k q)) ?_
  simp only [select_apply, cmpf_apply, mulf_apply, addf_apply, broadcast_apply, prodH_at, broadcastTo_1b_ab_apply, truncf_apply]
  rfl

end Cert.KernelIdeal.Body

end
-- ==== Proof.Region7.lean ====
/-
  Region 7 (the pooled perceptron): one grid point, every window one whole-array block, so what the point writes back
  is the perceptron of the arrays as the region finds them, and that one block is the whole output array.
-/
import proofs.«179248_j25366076850805_1_alg».proof.Proof.Gen.KernelIdeal.Frame
import proofs.«179248_j25366076850805_1_alg».proof.Proof.BodyMlp
import Idealize.ShloMosaic.Lib.Pipeline.Value

noncomputable section

open scoped BigOperators

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)

-- the TensorCore's buffer contents when the region is entered, at the ideal instance
variable (V : (c : Dev nD) → (b : Ref sig .tc) → Buf (Elt Ideal) ((c : Thread nD τ).loc b))

theorem hz7 : (![0, 0] : Fin 2 → Nat) = fun _ => 0 := funext fun a => by fin_cases a <;> rfl

/-- At the one grid point every window's block is block (0, 0). -/
theorem idx_facts7 : ∀ t : Fin cfg7.N, (win7_0.index t (0 : Fin 2) = 0 ∧ win7_0.index t (1 : Fin 2) = 0)
    ∧ (win7_1.index t (0 : Fin 2) = 0 ∧ win7_1.index t (1 : Fin 2) = 0)
    ∧ (win7_2.index t (0 : Fin 2) = 0 ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = 0 ∧ win7_5.index t (1 : Fin 2) = 0) :=
  (by decide +kernel : ∀ t : Fin grid7.N, _)

/-- A whole-array block's element sits at its own index. -/
theorem emb7_0 (t : Fin cfg7.N) (y : S64x128.Idx) : ((cfg7.win 0).blk t).view.emb y = y := by
  obtain ⟨⟨a, b⟩, -⟩ := idx_facts7 t
  funext ax; apply Fin.ext
  match ax with
  | ⟨0, _⟩ => show win7_0.index t (0 : Fin 2) * 64 + 1 * (y 0).val = (y 0).val; omega
  | ⟨1, _⟩ => show win7_0.index t (1 : Fin 2) * 128 + 1 * (y 1).val = (y 1).val; omega
theorem emb7_1 (t : Fin cfg7.N) (y : S128x64.Idx) : ((cfg7.win 1).blk t).view.emb y = y := by
  obtain ⟨-, ⟨a, b⟩, -⟩ := idx_facts7 t
  funext ax; apply Fin.ext
  match ax with
  | ⟨0, _⟩ => show win7_1.index t (0 : Fin 2) * 128 + 1 * (y 0).val = (y 0).val; omega
  | ⟨1, _⟩ => show win7_1.index t (1 : Fin 2) * 64 + 1 * (y 1).val = (y 1).val; omega
theorem emb7_2 (t : Fin cfg7.N) (y : S1x64.Idx) : ((cfg7.win 2).blk t).view.emb y = y := by
  obtain ⟨-, -, ⟨a, b⟩, -⟩ := idx_facts7 t
  funext ax; apply Fin.ext
  match ax with
  | ⟨0, _⟩ => show win7_2.index t (0 : Fin 2) * 1 + 1 * (y 0).val = (y 0).val; omega
  | ⟨1, _⟩ => show win7_2.index t (1 : Fin 2) * 64 + 1 * (y 1).val = (y 1).val; omega
theorem emb7_3 (t : Fin cfg7.N) (y : S64x8.Idx) : ((cfg7.win 3).blk t).view.emb y = y := by
  obtain ⟨-, -, -, ⟨a, b⟩, -⟩ := idx_facts7 t
  funext ax; apply Fin.ext
  match ax with
  | ⟨0, _⟩ => show win7_3.index t (0 : Fin 2) * 64 + 1 * (y 0).val = (y 0).val; omega
  | ⟨1, _⟩ => show win7_3.index t (1 : Fin 2) * 8 + 1 * (y 1).val = (y 1).val; omega
theorem emb7_4 (t : Fin cfg7.N) (y : S1x8.Idx) : ((cfg7.win 4).blk t).view.emb y = y := by
  obtain ⟨-, -, -, -, ⟨a, b⟩, -⟩ := idx_facts7 t
  funext ax; apply Fin.ext
  match ax with
  | ⟨0, _⟩ => show win7_4.index t (0 : Fin 2) * 1 + 1 * (y 0).val = (y 0).val; omega
  | ⟨1, _⟩ => show win7_4.index t (1 : Fin 2) * 8 + 1 * (y 1).val = (y 1).val; omega
theorem emb7_5 (t : Fin cfg7.N) (y : S64x8.Idx) : ((cfg7.win 5).blk t).view.emb y = y := by
  obtain ⟨-, -, -, -, -, ⟨a, b⟩⟩ := idx_facts7 t
  funext ax; apply Fin.ext
  match ax with
  | ⟨0, _⟩ => show win7_5.index t (0 : Fin 2) * 64 + 1 * (y 0).val = (y 0).val; omega
  | ⟨1, _⟩ => show win7_5.index t (1 : Fin 2) * 8 + 1 * (y 1).val = (y 1).val; omega

/-- What the one point writes back is the perceptron of the arrays as the region finds them. -/
theorem flushed7_eq (c : Dev nD) (t : Fin cfg7.N) :
    (dat7 V c).flushed 5 t = ((cfg7.win 5).blk t).view.read (Elt Ideal)
      (Spec.mlp (V c main_v127) (V c main_arg11) (V c main_v128) (V c main_arg13) (V c main_v129)) := by
  show (cfg7.win 5).cut (grid7.coords t) ((dat7 V c).after 5 t) = _
  rw [after7_5]
  unfold out7_5
  rw [View.canon_unit_zero hz7]
  simp only [View.ld_unit_zero (S := S64x128) hz7, View.ld_unit_zero (S := S128x64) hz7, View.ld_unit_zero (S := S1x64) hz7,
    View.ld_unit_zero (S := S64x8) hz7, View.ld_unit_zero (S := S1x8) hz7]
  rw [Body.k7_pay1_eq]
  funext j
  show Spec.mlp (fun y => V c main_v127 (((cfg7.win 0).blk t).view.emb y)) (fun y => V c main_arg11 (((cfg7.win 1).blk t).view.emb y))
        (fun y => V c main_v128 (((cfg7.win 2).blk t).view.emb y)) (fun y => V c main_arg13 (((cfg7.win 3).blk t).view.emb y))
        (fun y => V c main_v129 (((cfg7.win 4).blk t).view.emb y)) j
     = Spec.mlp (V c main_v127) (V c main_arg11) (V c main_v128) (V c main_arg13) (V c main_v129) (((cfg7.win 5).blk t).view.emb j)
  have e0 : (fun y => V c main_v127 (((cfg7.win 0).blk t).view.emb y)) = V c main_v127 :=
    funext fun y => congrArg (V c main_v127) (emb7_0 t y)
  have e1 : (fun y => V c main_arg11 (((cfg7.win 1).blk t).view.emb y)) = V c main_arg11 :=
    funext fun y => congrArg (V c main_arg11) (emb7_1 t y)
  have e2 : (fun y => V c main_v128 (((cfg7.win 2).blk t).view.emb y)) = V c main_v128 :=
    funext fun y => congrArg (V c main_v128) (emb7_2 t y)
  have e3 : (fun y => V c main_arg13 (((cfg7.win 3).blk t).view.emb y)) = V c main_arg13 :=
    funext fun y => congrArg (V c main_arg13) (emb7_3 t y)
  have e4 : (fun y => V c main_v129 (((cfg7.win 4).blk t).view.emb y)) = V c main_v129 :=
    funext fun y => congrArg (V c main_v129) (emb7_4 t y)
  have key : ∀ (f₀ g₀ : Spec.Mat 64 128) (f₁ g₁ : Spec.Mat 128 64) (f₂ g₂ : Spec.Mat 1 64) (f₃ g₃ : Spec.Mat 64 8) (f₄ g₄ : Spec.Mat 1 8)
      (i i' : (⟨2, ![64, 8]⟩ : Shape).Idx), f₀ = g₀ → f₁ = g₁ → f₂ = g₂ → f₃ = g₃ → f₄ = g₄ → i = i' →
      Spec.mlp f₀ f₁ f₂ f₃ f₄ i = Spec.mlp g₀ g₁ g₂ g₃ g₄ i' := by
    intro f₀ g₀ f₁ g₁ f₂ g₂ f₃ g₃ f₄ g₄ i i' h₀ h₁ h₂ h₃ h₄ hi
    rw [h₀, h₁, h₂, h₃, h₄, hi]
  exact key _ _ _ _ _ _ _ _ _ _ _ _ e0 e1 e2 e3 e4 (emb7_5 t j).symm

/-- The one block is the whole output array. -/
theorem mem_blk7 (t : Fin cfg7.N) (i : S64x8.Idx) :
    i ∈ ((cfg7.win 5).blk t).view.set ↔ ∀ a : Fin 2, win7_5.index t a * S64x8.size a ≤ (i a).val ∧ (i a).val < win7_5.index t a * S64x8.size a + S64x8.size a := by
  show i ∈ ((View.whole main_v130).slice (win7_5.rect t)).set ↔ _
  rw [View.set_slice_whole, Rect.mem_set_unit]
  exact Iff.rfl

theorem cover7 (i : S64x8.Idx) : ∃ t : Fin cfg7.N, (cfg7.win 5).flush t = true ∧ i ∈ ((cfg7.win 5).blk t).view.set := by
  have hi0 : (i 0).val < 64 := (i 0).isLt
  have hi1 : (i 1).val < 8 := (i 1).isLt
  have hN : cfg7.N = 1 := N_7
  let t : Fin cfg7.N := ⟨0, by rw [hN]; omega⟩
  obtain ⟨-, -, -, -, -, ⟨a5, b5⟩⟩ := idx_facts7 t
  refine ⟨t, flush7_5 t, ?_⟩
  rw [mem_blk7]
  intro a
  match a with
  | ⟨0, _⟩ => show win7_5.index t (0 : Fin 2) * 64 ≤ (i 0).val ∧ (i 0).val < win7_5.index t (0 : Fin 2) * 64 + 64; omega
  | ⟨1, _⟩ => show win7_5.index t (1 : Fin 2) * 8 ≤ (i 1).val ∧ (i 1).val < win7_5.index t (1 : Fin 2) * 8 + 8; omega

/-- The output array after the region: the perceptron of the arrays as the region finds them. -/
theorem final7 (c : Dev nD) : (dat7 V c).arrAt 5 cfg7.N
    = Spec.mlp (V c main_v127) (V c main_arg11) (V c main_v128) (V c main_arg13) (V c main_v129) :=
  (dat7 V c).arrAt_eq_of_cover 5 _ (fun t _ => flushed7_eq V c t) (cover7)

end Cert.KernelIdeal.Region

end
-- ==== Proof.Chain4.lean ====
/-
  Boundaries 13 to 16: the third layer's neighbourhood sums and normalisation, the sum of node rows per graph, and the
  pooled perceptron — the program's result is the reference's result stage of the launch memory's arguments.
-/
import proofs.«179248_j25366076850805_1_alg».proof.Proof.Chain3
import proofs.«179248_j25366076850805_1_alg».proof.Proof.Region6
import proofs.«179248_j25366076850805_1_alg».proof.Proof.Region7

noncomputable section

namespace Cert.KernelIdeal.Chain

open Cert.KernelIdeal Cert.KernelIdeal.Gen Cert.ReferenceIdeal.ReadP Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Boundary 13: the neighbourhood sums and the layer's parameter rows -/

/-- The weighted neighbourhood sums: the same host operations as the reference's, applied to equal transformed features,
    edge endpoints and edge weights. -/
theorem l13_v108 : W13 m ρ c (Proc.devRef .tc main_v108) = val_main_v144 (F := Ideal) (A0 m c) (A1 m c) (A3 m c) (A4 m c) (A5 m c) (A6 m c) (A7 m c) (A8 m c) (A9 m c) (A10 m c) := by
  show StableHlo.after hostOps6 (W12 m ρ c) (Proc.devRef .tc main_v108) = _
  after_results_simp
  rw [l12_v95 m ρ c, Carry.edge12 m ρ c main_v3 (by decide), Carry.edge12 m ρ c main_v6 (by decide),
    Carry.edge12 m ρ c main_v26 (by decide), l1_v3 m ρ c, l1_v6 m ρ c, l1_v26 m ρ c]
  rfl

/-- A parameter row: the layer's slice of the argument, reshaped to one row, is the reference's row. -/
theorem l13_v119 : W13 m ρ c (Proc.devRef .tc main_v119) = val_main_v147 (F := Ideal) (A6 m c) := by
  show StableHlo.after hostOps6 (W12 m ρ c) (Proc.devRef .tc main_v119) = _
  after_results_simp
  rw [Carry.arg12 m ρ c main_arg6 (by decide)]
  exact Cert.LibRowOfVector.shapeCast_eq_broadcastInDim (by decide) _ _ _

/-- A parameter row: the layer's slice of the argument, reshaped to one row, is the reference's row. -/
theorem l13_v120 : W13 m ρ c (Proc.devRef .tc main_v120) = val_main_v165 (F := Ideal) (A7 m c) := by
  show StableHlo.after hostOps6 (W12 m ρ c) (Proc.devRef .tc main_v120) = _
  after_results_simp
  rw [Carry.arg12 m ρ c main_arg7 (by decide)]
  exact Cert.LibRowOfVector.shapeCast_eq_broadcastInDim (by decide) _ _ _

/-- A parameter row: the layer's slice of the argument, reshaped to one row, is the reference's row. -/
theorem l13_v121 : W13 m ρ c (Proc.devRef .tc main_v121) = val_main_v170 (F := Ideal) (A8 m c) := by
  show StableHlo.after hostOps6 (W12 m ρ c) (Proc.devRef .tc main_v121) = _
  after_results_simp
  rw [Carry.arg12 m ρ c main_arg8 (by decide)]
  exact Cert.LibRowOfVector.shapeCast_eq_broadcastInDim (by decide) _ _ _

/-- A parameter row: the layer's slice of the argument, reshaped to one row, is the reference's row. -/
theorem l13_v122 : W13 m ρ c (Proc.devRef .tc main_v122) = val_main_v152 (F := Ideal) (A9 m c) := by
  show StableHlo.after hostOps6 (W12 m ρ c) (Proc.devRef .tc main_v122) = _
  after_results_simp
  rw [Carry.arg12 m ρ c main_arg9 (by decide)]
  exact Cert.LibRowOfVector.shapeCast_eq_broadcastInDim (by decide) _ _ _

/-- The variance row: the reference lays the variance down as a row only after taking the reciprocal square root, so the
    row itself is stated over the reference's variance vector. -/
theorem l13_v123 : W13 m ρ c (Proc.devRef .tc main_v123)
    = broadcastInDim Cert.ReferenceIdeal.S1x128 ![1] Cert.ReferenceIdeal.Facts₀.bcast_S128_S1x128_1 (val_main_v156 (F := Ideal) (A10 m c)) := by
  show StableHlo.after hostOps6 (W12 m ρ c) (Proc.devRef .tc main_v123) = _
  after_results_simp
  rw [Carry.arg12 m ρ c main_arg10 (by decide)]
  exact Cert.LibRowOfVector.shapeCast_eq_broadcastInDim (by decide) _ _ _

/-! ## Boundary 14: bias, normalisation, rectifier -/

theorem l14_v124 : W14 m ρ c (Proc.devRef .tc main_v124) = val_main_v177 (F := Ideal) (A0 m c) (A1 m c) (A3 m c) (A4 m c) (A5 m c) (A6 m c) (A7 m c) (A8 m c) (A9 m c) (A10 m c) := by
  refine (W14_arr m ρ c 6).trans ((Region.final6 (V13 m ρ) c).trans ?_)
  show Spec.bnLeaky (W13 m ρ c (Proc.devRef .tc main_v108)) (W13 m ρ c (Proc.devRef .tc main_v119)) (W13 m ρ c (Proc.devRef .tc main_v120))
    (W13 m ρ c (Proc.devRef .tc main_v121)) (W13 m ρ c (Proc.devRef .tc main_v122)) (W13 m ρ c (Proc.devRef .tc main_v123)) = _
  rw [l13_v108 m ρ c, l13_v119 m ρ c, l13_v120 m ρ c, l13_v121 m ρ c,
    l13_v122 m ρ c, l13_v123 m ρ c]
  exact ((Cert.ReferenceIdeal.Bridge.v177_tree _ _ _ _ _ _ _ _ _ _).trans (Cert.ReferenceIdeal.Bridge.bnTree_eq _ _ _ _ _ _)).symm

/-! ## Boundary 15: the per-graph sums and the perceptron's bias rows -/

/-- The per-graph sums: the same scatter-add as the reference's, of equal node features by the same batch vector. -/
theorem l15_v127 : W15 m ρ c (Proc.devRef .tc main_v127) = val_main_v180 (F := Ideal) (A0 m c) (A1 m c) (A2 m c) (A3 m c) (A4 m c) (A5 m c) (A6 m c) (A7 m c) (A8 m c) (A9 m c) (A10 m c) := by
  show StableHlo.after hostOps7 (W14 m ρ c) (Proc.devRef .tc main_v127) = _
  after_results
  rw [l14_v124 m ρ c, Carry.arg14 m ρ c main_arg2 (by decide)]
  rfl
theorem l15_v128 : W15 m ρ c (Proc.devRef .tc main_v128) = val_main_v182 (F := Ideal) (A12 m c) := by
  show StableHlo.after hostOps7 (W14 m ρ c) (Proc.devRef .tc main_v128) = _
  after_results
  rw [Carry.arg14 m ρ c main_arg12 (by decide)]
  exact Cert.LibRowOfVector.shapeCast_eq_broadcastInDim (by decide) _ _ _
theorem l15_v129 : W15 m ρ c (Proc.devRef .tc main_v129) = val_main_v191 (F := Ideal) (A14 m c) := by
  show StableHlo.after hostOps7 (W14 m ρ c) (Proc.devRef .tc main_v129) = _
  after_results
  rw [Carry.arg14 m ρ c main_arg14 (by decide)]
  exact Cert.LibRowOfVector.shapeCast_eq_broadcastInDim (by decide) _ _ _

/-! ## Boundary 16: the pooled perceptron -/

/-- The program's result buffer at the last boundary is the reference's result stage of the launch memory's arguments. -/
theorem l16_v130 : W16 m ρ c (Proc.devRef .tc main_v130) = val_main_v193 (F := Ideal) (A0 m c) (A1 m c) (A2 m c) (A3 m c) (A4 m c) (A5 m c) (A6 m c) (A7 m c) (A8 m c) (A9 m c) (A10 m c) (A11 m c) (A12 m c) (A13 m c) (A14 m c) := by
  refine (W16_arr m ρ c 5).trans ((Region.final7 (V15 m ρ) c).trans ?_)
  show Spec.mlp (W15 m ρ c (Proc.devRef .tc main_v127)) (W15 m ρ c (Proc.devRef .tc main_arg11)) (W15 m ρ c (Proc.devRef .tc main_v128))
    (W15 m ρ c (Proc.devRef .tc main_arg13)) (W15 m ρ c (Proc.devRef .tc main_v129)) = _
  rw [l15_v127 m ρ c, l15_v128 m ρ c, l15_v129 m ρ c, Carry.arg15 m ρ c main_arg11 (by decide), Carry.arg15 m ρ c main_arg13 (by decide)]
  exact ((Cert.ReferenceIdeal.Bridge.v193_tree _ _ _ _ _ _ _ _ _ _ _ _ _ _ _).trans (Cert.ReferenceIdeal.Bridge.mlpTree_eq _ _ _ _ _)).symm

end Cert.KernelIdeal.Chain

end
-- ==== Proof.lean ====
/-
  The proof of `Cert.Claim`: the three frames, the (empty) ledger, and the two idealized programs' equal results.

  The kernel program is eight kernel regions among stretches of host operations; the reference is one stretch of host
  operations. On the extended reals the two compute one function of the arguments: every dense step of the kernel (the
  node embedding, each layer's transform, each layer's bias, batch normalisation and leaky rectifier, the pooled
  perceptron) is the reference's corresponding stage — a product started from zero and rounded operands change nothing
  there, and a block of rows of a product or of an entrywise function is the product or the function of that block of
  rows — and every other step (degrees, edge weights, neighbourhood sums, per-graph sums) is the same host operation on
  both sides. So no law of arithmetic beyond "0 + x = x" joins the two sides, and the precondition is never opened.

  * Proof/Spec.lean          the dense steps as functions of their operands, entry by entry;
  * Proof/Body*.lean         each kernel body's block is that function of its loaded blocks;
  * Proof/Region0…7.lean     each region's output array is that function of the arrays the region finds;
  * Proof/RefBridge.lean     each dense stage of the reference is that function of the earlier stages;
  * Proof/Carry.lean         the buffers no step writes, boundary by boundary;
  * Proof/Chain1…4.lean      the kernel program's buffers, boundary by boundary, are the reference's stages;
  * Proof/KernelRun.lean     the kernel program's run with its result named;
  * Proof/RefRunP.lean, RefReadP.lean, RefValue.lean   the reference's run and stages (patched copies of two generated
                             modules that do not elaborate as generated, and the one theorem that joins them).
-/
import proofs.«179248_j25366076850805_1_alg».proof.Defs
import proofs.«179248_j25366076850805_1_alg».proof.Proof.Gen.Kernel
import proofs.«179248_j25366076850805_1_alg».proof.Proof.Gen.Kernel.Frame
import proofs.«179248_j25366076850805_1_alg».proof.Proof.Gen.KernelIdeal
import proofs.«179248_j25366076850805_1_alg».proof.Proof.Gen.KernelIdeal.Frame
import proofs.«179248_j25366076850805_1_alg».proof.Proof.Gen.ReferenceIdeal
import proofs.«179248_j25366076850805_1_alg».proof.Proof.RefRunP
import proofs.«179248_j25366076850805_1_alg».proof.Proof.RefReadP
import proofs.«179248_j25366076850805_1_alg».proof.Proof.RefValue
import proofs.«179248_j25366076850805_1_alg».proof.Proof.Gen.Pre_finite_inputs
import proofs.«179248_j25366076850805_1_alg».proof.Proof.KernelRun
import proofs.«179248_j25366076850805_1_alg».proof.Proof.Chain4
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end at the reference's result stage of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v193 (F := Ideal) (Cert.KernelIdeal.Chain.A0 m c) (Cert.KernelIdeal.Chain.A1 m c) (Cert.KernelIdeal.Chain.A2 m c) (Cert.KernelIdeal.Chain.A3 m c) (Cert.KernelIdeal.Chain.A4 m c) (Cert.KernelIdeal.Chain.A5 m c) (Cert.KernelIdeal.Chain.A6 m c) (Cert.KernelIdeal.Chain.A7 m c) (Cert.KernelIdeal.Chain.A8 m c) (Cert.KernelIdeal.Chain.A9 m c) (Cert.KernelIdeal.Chain.A10 m c) (Cert.KernelIdeal.Chain.A11 m c) (Cert.KernelIdeal.Chain.A12 m c) (Cert.KernelIdeal.Chain.A13 m c) (Cert.KernelIdeal.Chain.A14 m c), ?_, ?_⟩
  · exact (θ_run Cert.KernelIdeal.defs _ _).mono
      (fun r h c => ⟨(h c).1.trans (Cert.KernelIdeal.Chain.l16_v130 m ρ c), (h c).2⟩) (Cert.KernelIdeal.Run.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq]
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
